-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v66 : BitVec 1 := Scalar.cmpi .eq arg0 c7_i32
  let arg1 : BitVec 32 := BitVec.ofNat 32 (i 1).val
  let c7_i32_31 : BitVec 32 := 7#32
  let v67 : BitVec 1 := Scalar.cmpi .eq arg1 c7_i32_31
  let v68 : BitVec 1 := Scalar.andi v66 v67
  let v69 : BitVec 32 := Scalar.extui v68
  let c0_i32_32 : BitVec 32 := 0#32
  let v70 : BitVec 1 := Scalar.cmpi .ne v69 c0_i32_32
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x64, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x64, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S64x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_v46 : Ref sig .tc := ⟨.hbm, 74, rfl⟩
abbrev main_cst_15 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BRuns.lean ====
/-
  The kernel's grid of 8 x 8 points, read once: where the body's two conditionals fire (the accumulators are
  zeroed at the first point only, the two results are stored at the last point only), where each window is idle,
  and what each input window's staging buffer holds when the body runs (its block of the array: rows
  1024 (t / 8) … of the first operand, rows 1024 (t % 8) … of the second and third).
-/
import proofs.«140796_j56727928045837_1_alg».proof.Proof.Gen.Kernel.Launch
import proofs.«140796_j56727928045837_1_alg».proof.Proof.Gen.Kernel.Skeleton
import proofs.«140796_j56727928045837_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditionals, decided over the grid -/

/-- The first conditional (zero the accumulators): both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional (store the results): both grid coordinates are 7. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point output 3 is idle and not written back; at the last point it is stored. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Away from the last point output 4 is idle and not written back; at the last point it is stored. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region hands the body beside the windows: the two accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BRunA.lean ====
/-
  The kernel body run once, symbolically, at the first point: the accumulators are zeroed first, nothing is stored to the results.
  The body's stores into each accumulator (and, at the last point, each result) are found as a list of pieces,
  last store first; what they add up to is read off in a later module.
-/
import proofs.«140796_j56727928045837_1_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at the first point: the accumulators are zeroed first, nothing is stored to the results: the pieces its stores leave, with the proof that it runs to
    the continuation holding the inputs as they were and each stored-into buffer with those pieces written. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (xi3 xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨[], [], ?_, ?_, fun xi3 xi4 E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BRunB.lean ====
/-
  The kernel body run once, symbolically, at a middle point: the accumulators carry on, nothing is stored to the results.
  The body's stores into each accumulator (and, at the last point, each result) are found as a list of pieces,
  last store first; what they add up to is read off in a later module.
-/
import proofs.«140796_j56727928045837_1_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at a middle point: the accumulators carry on, nothing is stored to the results: the pieces its stores leave, with the proof that it runs to
    the continuation holding the inputs as they were and each stored-into buffer with those pieces written. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (xi3 xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨[], [], ?_, ?_, fun xi3 xi4 E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BRunC.lean ====
/-
  The kernel body run once, symbolically, at the last point: the accumulators carry on and are copied to the two results.
  The body's stores into each accumulator (and, at the last point, each result) are found as a list of pieces,
  last store first; what they add up to is read off in a later module.
-/
import proofs.«140796_j56727928045837_1_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at the last point: the accumulators carry on and are copied to the two results: the pieces its stores leave, with the proof that it runs to
    the continuation holding the inputs as they were and each stored-into buffer with those pieces written. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨?_, ?_, ?_, ?_, fun E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.BFrame.lean ====
/-
  The accumulation over the grid.  After the body at point n the two accumulators hold what the case at n leaves
  (the first point starts from zero, every later point from what the point before left); the two results are
  stored at the last point only.  The region's invariant carries the accumulators from point to point; the
  proof data name each window's staging contents after each point; the body obligation is the three runs,
  selected by the point's position.
-/
import proofs.«140796_j56727928045837_1_alg».proof.Proof.BRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Acc
variable (V : (c : Dev nD) → (b : Ref sig .tc) → Buf (Elt F) ((c : Thread nD τ).loc b))

theorem scover0_A_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) (y : S1x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1.size (by sl_kernel_rfl) y
/-- What case A leaves in the first accumulator: its pieces read back. -/
def sout0_A_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
theorem scover0_A_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) (y : S1x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1x1.size (by sl_kernel_rfl) y
/-- What case A leaves in the second accumulator. -/
def sout0_A_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

theorem scover0_B_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1x1.size (by sl_kernel_rfl) y
/-- What case B leaves in the first accumulator: its pieces read back. -/
def sout0_B_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
theorem scover0_B_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1x1.size (by sl_kernel_rfl) y
/-- What case B leaves in the second accumulator. -/
def sout0_B_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem scover0_C_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1x1.size (by sl_kernel_rfl) y
/-- What case C leaves in the first accumulator: its pieces read back. -/
def sout0_C_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
theorem scover0_C_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x1.size (by sl_kernel_rfl) y
/-- What case C leaves in the second accumulator. -/
def sout0_C_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)
theorem cover0_C_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x1.size (by sl_kernel_rfl) y
/-- What the last point leaves in the first result's staging buffer. -/
def out0_C_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1.size (by sl_kernel_rfl) y
/-- What the last point leaves in the second result's staging buffer. -/
def out0_C_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- THE ACCUMULATION: (first result's buffer, second result's buffer, first accumulator, second accumulator) after the
    body at position n. Away from the last point the results' buffers are not consulted (idle, not written back). -/
def outsAt0 (c : Dev nD) : (n : ℕ) → n < cfg0.N → Vec F S1x1 .f32 × Vec F S1x1 .f32 × Vec F S1x1 .f32 × Vec F S1x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩))
  | n + 1, hn =>
    if h0 : (n + 1) % 64 = 0 then
      False.elim (by have hN : n + 1 < 64 := lt_of_lt_of_eq hn (show cfg0.N = 64 from N_0); omega)
    else
      if h1 : (n + 1) % 64 = 63 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 64 = 0) (h1 : ¬t.val % 64 = 63) :
    outsAt0 V c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : ¬t.val % 64 = 63) :
    outsAt0 V c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulators hold anything; afterwards what
    the point before left. The generator register rides along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ (∃ r, prngReg c r)) := by
  cases n with
  | zero => exact absurd rfl hz
  | succ n => rfl

/-- The proof data: the arrays as the region finds them; after the body each input's buffer at its block, each
    result's at the accumulation's component; the invariant above; the first operand's array is read through two
    windows, which hold the two halves of its share; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the position says which of the three runs applies; the invariant hands it the accumulators
    (at anything before the first point, at what the point before left afterwards) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 64 = 0
  · have h1 : ¬t.val % 64 = 63 := by omega
    have hz : t.val = 0 := by omega
    have hnc1 : ¬cond0_1 (grid0.coords t) := fun h => h1 ((hcond0_1 t).mp h)
    rw [Dat.leavesExact_idle (dat0 V c) 3 t (idleAt0_3 t hnc1) (noFlush0_3 t hnc1),
      Dat.leavesExact_idle (dat0 V c) 4 t (idleAt0_4 t hnc1) (noFlush0_4 t hnc1)]
    rw [outsAt0_A V c t h0 h1]
    unfold sout0_A_0 sout0_A_1; (try dsimp only)
    rw [PhiS_castSucc V c t, PhiS_zero V c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t)).2.2.2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ )
        · unfold owns; iexists _; isplitr
          swap; · iexact HS1
          ipureintro; exact View.read_writes_of_cover _ _ _ _ _ (scover0_A_1 c _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    by_cases h1 : t.val % 64 = 63
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C_3 out0_C_4 sout0_C_0 sout0_C_1; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ )
      · unfold owns; iexists _; isplitr
        swap; · iexact H4
        ipureintro; exact View.read_writes_of_cover _ _ _ _ _ (cover0_C_4 c _ _ _ _ _ _ _ _ _ _ _ _ _ _ _ _ _ _ _ _ _ _ )
    · have hnc1 : ¬cond0_1 (grid0.coords t) := fun h => h1 ((hcond0_1 t).mp h)
      rw [Dat.leavesExact_idle (dat0 V c) 3 t (idleAt0_3 t hnc1) (noFlush0_3 t hnc1),
        Dat.leavesExact_idle (dat0 V c) 4 t (idleAt0_4 t hnc1) (noFlush0_4 t hnc1)]
      rw [outsAt0_B V c t h0 h1]
      unfold sout0_B_0 sout0_B_1; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexists _; iexact H3
      iexists _; iexact H4

/-- The body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hinΦ (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the accumulators back, their contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

theorem houtΦ (c : Dev nD) : (dat0 V c).Φ (Fin.last cfg0.N) ⊢ Pipeline.ΦA spec0 c :=
  Phi_out V c _ (by rw [Fin.val_last]; have : cfg0.N = 64 := N_0; omega)

end Acc

end Cert.Kernel.Hand

end
-- ==== Proof.BLaunch.lean ====
/-
  The launch.  @main is the kernel region followed by twelve host operations.  The first operand's array is
  read through two windows, so at the region's entry its full share is dealt in halves to the two windows and
  at the exit the halves are joined again; the two results' arrays come back holding what the last point wrote.
  The run then states, for every buffer that outlives the region, what it holds at the end: the region's exit
  contents pushed through the twelve operations.
-/
import proofs.«140796_j56727928045837_1_alg».proof.Proof.BFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A core's unscoped buffers and the pipeline's arrays, one by one -/

theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v1) ↦{fullShare} V main_v1) ∗ (((c : Thread nD τ).loc main_v2) ↦{fullShare} V main_v2) ∗ (((c : Thread nD τ).loc main_cst) ↦{fullShare} V main_cst) ∗ (((c : Thread nD τ).loc main_v3) ↦{fullShare} V main_v3) ∗ (((c : Thread nD τ).loc main_cst_0) ↦{fullShare} V main_cst_0) ∗ (((c : Thread nD τ).loc main_v4) ↦{fullShare} V main_v4) ∗ (((c : Thread nD τ).loc main_cst_1) ↦{fullShare} V main_cst_1) ∗ (((c : Thread nD τ).loc main_v5) ↦{fullShare} V main_v5) ∗ (((c : Thread nD τ).loc main_v6) ↦{fullShare} V main_v6) ∗ (((c : Thread nD τ).loc main_cst_2) ↦{fullShare} V main_cst_2) ∗ (((c : Thread nD τ).loc main_v7) ↦{fullShare} V main_v7) ∗ (((c : Thread nD τ).loc main_v8) ↦{fullShare} V main_v8)) := by
  unfold unscopedBufs
  exact bigSep_eq_bigSepL_of_eq [main_arg0, main_arg1, main_v0_0, main_v0_1, main_v1, main_v2, main_cst, main_v3, main_cst_0, main_v4, main_cst_1, main_v5, main_v6, main_cst_2, main_v7, main_v8] (by decide) (by decide) _

section Arrays
variable (V : (c : Dev nD) → (b : Ref sig .tc) → Buf (Elt F) ((c : Thread nD τ).loc b))

theorem arrays_list (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1) ∗ (((c : Thread nD τ).loc main_arg1) ↦{fullShare} G 2) ∗ (((c : Thread nD τ).loc main_v0_0) ↦{fullShare} G 3) ∗ (((c : Thread nD τ).loc main_v0_1) ↦{fullShare} G 4)) := by
  unfold Dat.arrays
  rw [bigSep_W0, (arr_whole0 0).set_eq_univ, (arr_whole0 2).set_eq_univ, (arr_whole0 3).set_eq_univ, (arr_whole0 4).set_eq_univ]
  rfl

/-- ENTRY: the unscoped buffers at the region-entry contents are the pipeline's arrays — the first operand's full
    share dealt in halves to its two windows — and the buffers no window stages. -/
theorem entry_split (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [unscopedBufs_list, arrays_list, unscopedRest0_eq]
  iintro ⟨Ha0, Ha1, Hv00, Hv01, Hrest⟩
  ihave Hs := (pointsTo_share (PosShare.mem_left_op_right fullShare)).1 $$ Ha0
  icases Hs with ⟨HaL, HaR⟩
  isplitl [HaL HaR Ha1 Hv00 Hv01]
  · isplitl [HaL]; · iexact HaL
    isplitl [HaR]; · iexact HaR
    isplitl [Ha1]; · iexact Ha1
    isplitl [Hv00]; · iexact Hv00
    iexact Hv01
  iexact Hrest

end Arrays

section Run
variable (m : (ℓ : Loc nD τ sig) → Buf (Elt F) ℓ) (ρ : Dev nD → PrngReg)

/-- Core c's buffers at launch, which is when the region is entered (no host operation comes before it). -/
abbrev W0 : Dev nD → Valuation τ sig (Elt F) := fun c b => m ((c : Dev nD), b)
abbrev V1 : (c : Dev nD) → (b : Ref sig .tc) → Buf (Elt F) ((c : Thread nD τ).loc b) := fun c b => W0 m c b

/-- At the region's exit: the two results' arrays at what the last point wrote back, every other buffer as entered. -/
def W2 (c : Dev nD) : Valuation τ sig (Elt F) :=
  Function.update (Function.update (W0 m c) (Proc.devRef .tc main_v0_0) ((dat0 (V1 m) c).arrAt 3 cfg0.N))
    (Proc.devRef .tc main_v0_1) ((dat0 (V1 m) c).arrAt 4 cfg0.N)

theorem W2_v0_1 (c : Dev nD) : W2 m c (Proc.devRef .tc main_v0_1) = (dat0 (V1 m) c).arrAt 4 cfg0.N := by
  unfold W2; exact Function.update_self ..
theorem W2_v0_0 (c : Dev nD) : W2 m c (Proc.devRef .tc main_v0_0) = (dat0 (V1 m) c).arrAt 3 cfg0.N := by
  unfold W2
  rw [Function.update_of_ne (StableHlo.devRef_ne_of_ne (by decide))]; exact Function.update_self ..
theorem W2_rest (c : Dev nD) (b : Ref sig .tc) (h3 : b ≠ main_v0_0) (h4 : b ≠ main_v0_1) :
    W2 m c (Proc.devRef .tc b) = W0 m c (Proc.devRef .tc b) := by
  unfold W2
  rw [Function.update_of_ne (StableHlo.devRef_ne_of_ne h4), Function.update_of_ne (StableHlo.devRef_ne_of_ne h3)]

/-- EXIT: the arrays at what the pipeline leaves — the halves of the first operand's share joined again — and the
    buffers no window stages make every unscoped buffer at the exit contents. -/
theorem exit_join (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs (Ix := Unit) (Name := ℕ) (U := UR sig nD τ) (Lvl := ℕ) c (fun b => W2 m c b) : sProp 𝕄) := by
  rw [unscopedBufs_list, arrays_list, unscopedRest0_eq]
  have h0 : (dat0 (V1 m) c).arrAt 0 cfg0.N = V1 m c main_arg0 := ((dat0 (V1 m) c).arrAt_in 0 rfl _).trans (A_eq (V1 m) c 0)
  have h1 : (dat0 (V1 m) c).arrAt 1 cfg0.N = V1 m c main_arg0 := ((dat0 (V1 m) c).arrAt_in 1 rfl _).trans (A_eq (V1 m) c 1)
  have h2 : (dat0 (V1 m) c).arrAt 2 cfg0.N = V1 m c main_arg1 := ((dat0 (V1 m) c).arrAt_in 2 rfl _).trans (A_eq (V1 m) c 2)
  simp only [h0, h1, h2, W2_v0_0, W2_v0_1, W2_rest m c main_arg0 (by decide) (by decide), W2_rest m c main_arg1 (by decide) (by decide),
    W2_rest m c main_v1 (by decide) (by decide), W2_rest m c main_v2 (by decide) (by decide), W2_rest m c main_cst (by decide) (by decide), W2_rest m c main_v3 (by decide) (by decide), W2_rest m c main_cst_0 (by decide) (by decide), W2_rest m c main_v4 (by decide) (by decide), W2_rest m c main_cst_1 (by decide) (by decide), W2_rest m c main_v5 (by decide) (by decide), W2_rest m c main_v6 (by decide) (by decide), W2_rest m c main_cst_2 (by decide) (by decide), W2_rest m c main_v7 (by decide) (by decide), W2_rest m c main_v8 (by decide) (by decide)]
  rw [W2_v0_0 m c, W2_v0_1 m c]
  iintro ⟨⟨HaL, HaR, Ha1, Hv00, Hv01⟩, Hrest⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv00]; · iexact Hv00
  isplitl [Hv01]; · iexact Hv01
  iexact Hrest

/-- After the twelve host operations. -/
abbrev W3 : Dev nD → Valuation τ sig (Elt F) := fun c => StableHlo.after hostOps1 (W2 m c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The region as a segment: entered from every unscoped buffer at the launch contents, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hinΦ (V1 m) c)
  hout c := by
    rw [Pipeline.ownSems0_none]
    exact (houtΦ (V1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := exit_join m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's two segments: the region, then the twelve host operations from the exit contents. -/
abbrev segs : List (Pipeline.Seg (pcfgs (F := F)) adm (pdats m) () defs₀ 𝒱₀ L lv) :=
  [ .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: every weakly fair execution of @main terminates without fault, and every buffer that outlives the
    region ends at the exit contents pushed through the twelve host operations. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c =>
      (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.Kernel.Hand

end
-- ==== Proof.BTail.lean ====
/-
  The host operations that follow the kernel region, in the word-level program: no operation of the stretch writes
  an argument array, so both arguments are still what they were — whatever the float instance.
-/
import proofs.«140796_j56727928045837_1_alg».proof.Proof.Gen.Kernel.Launch
import Idealize.ShloMosaic.Lib.StableHlo.Run

noncomputable section

namespace Cert.Kernel.Tail

open Cert.Kernel Cert.Kernel.Gen Idealize.ShloMosaic

variable {F : FTy → Type} [FloatOps F]

/-- No operation after the region writes the first argument. -/
theorem tail_keeps_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No operation after the region writes the second argument. -/
theorem tail_keeps_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.Kernel.Tail

end
-- ==== Proof.BClaim.lean ====
/-
  The frame: the program runs to the end without fault and its two argument arrays end as launched — no host
  operation after the region writes an argument, and the region only reads them.
-/
import proofs.«140796_j56727928045837_1_alg».proof.Proof.BLaunch
import proofs.«140796_j56727928045837_1_alg».proof.Proof.BTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans ((Tail.tail_keeps_arg0 (W2 m c)).trans (W2_rest m c main_arg0 (by decide) (by decide))),
     (h c _ (mem_uc main_arg1 (by decide))).trans ((Tail.tail_keeps_arg1 (W2 m c)).trans (W2_rest m c main_arg1 (by decide) (by decide)))⟩)
    (run_main m ρ)

end Cert.Kernel.Hand

end
-- ==== Proof.KRuns.lean ====
/-
  The kernel's grid of 8 x 8 points, read once: where the body's two conditionals fire (the accumulators are
  zeroed at the first point only, the two results are stored at the last point only), where each window is idle,
  and what each input window's staging buffer holds when the body runs (its block of the array: rows
  1024 (t / 8) … of the first operand, rows 1024 (t % 8) … of the second and third).
-/
import proofs.«140796_j56727928045837_1_alg».proof.Proof.Gen.KernelIdeal.Launch
import proofs.«140796_j56727928045837_1_alg».proof.Proof.Gen.KernelIdeal.Skeleton
import proofs.«140796_j56727928045837_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two conditionals, decided over the grid -/

/-- The first conditional (zero the accumulators): both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional (store the results): both grid coordinates are 7. -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point output 3 is idle and not written back; at the last point it is stored. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Away from the last point output 4 is idle and not written back; at the last point it is stored. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the region hands the body beside the windows: the two accumulators at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/-
  The kernel body run once, symbolically, at the first point: the accumulators are zeroed first, nothing is stored to the results.
  The body's stores into each accumulator (and, at the last point, each result) are found as a list of pieces,
  last store first; what they add up to is read off in a later module.
-/
import proofs.«140796_j56727928045837_1_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at the first point: the accumulators are zeroed first, nothing is stored to the results: the pieces its stores leave, with the proof that it runs to
    the continuation holding the inputs as they were and each stored-into buffer with those pieces written. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (xi3 xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨[], [], ?_, ?_, fun xi3 xi4 E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KRunB.lean ====
/-
  The kernel body run once, symbolically, at a middle point: the accumulators carry on, nothing is stored to the results.
  The body's stores into each accumulator (and, at the last point, each result) are found as a list of pieces,
  last store first; what they add up to is read off in a later module.
-/
import proofs.«140796_j56727928045837_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at a middle point: the accumulators carry on, nothing is stored to the results: the pieces its stores leave, with the proof that it runs to
    the continuation holding the inputs as they were and each stored-into buffer with those pieces written. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (xi3 xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨[], [], ?_, ?_, fun xi3 xi4 E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KRunC.lean ====
/-
  The kernel body run once, symbolically, at the last point: the accumulators carry on and are copied to the two results.
  The body's stores into each accumulator (and, at the last point, each result) are found as a list of pieces,
  last store first; what they add up to is read off in a later module.
-/
import proofs.«140796_j56727928045837_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs at the last point: the accumulators carry on and are copied to the two results: the pieces its stores leave, with the proof that it runs to
    the continuation holding the inputs as they were and each stored-into buffer with those pieces written. -/
noncomputable def kernelRun0_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    Σ' (L3 : List (View.Piece (Elt F) S1x1 .f32)) (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__imq_combined_kernel i arg2 harg2 arg3 harg3 arg4 harg4 arg5 harg5 arg6 harg6 arg7 harg7 arg8 harg8) K } := by
  refine ⟨?_, ?_, ?_, ?_, fun E K => ?run⟩
  case run =>
    simp only [cc0__imq_combined_kernel_eq_skeleton]; unfold cc0__imq_combined_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KFrame.lean ====
/-
  The accumulation over the grid.  After the body at point n the two accumulators hold what the case at n leaves
  (the first point starts from zero, every later point from what the point before left); the two results are
  stored at the last point only.  The region's invariant carries the accumulators from point to point; the
  proof data name each window's staging contents after each point; the body obligation is the three runs,
  selected by the point's position.
-/
import proofs.«140796_j56727928045837_1_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Acc
variable (V : (c : Dev nD) → (b : Ref sig .tc) → Buf (Elt F) ((c : Thread nD τ).loc b))

theorem scover0_A_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) (y : S1x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1.size (by sl_kernel_rfl) y
/-- What case A leaves in the first accumulator: its pieces read back. -/
def sout0_A_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
theorem scover0_A_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) (y : S1x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1x1.size (by sl_kernel_rfl) y
/-- What case A leaves in the second accumulator. -/
def sout0_A_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

theorem scover0_B_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S1x1.size (by sl_kernel_rfl) y
/-- What case B leaves in the first accumulator: its pieces read back. -/
def sout0_B_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)
theorem scover0_B_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) (y : S1x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1x1.size (by sl_kernel_rfl) y
/-- What case B leaves in the second accumulator. -/
def sout0_B_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem scover0_C_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S1x1.size (by sl_kernel_rfl) y
/-- What case C leaves in the first accumulator: its pieces read back. -/
def sout0_C_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)
theorem scover0_C_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x1.size (by sl_kernel_rfl) y
/-- What case C leaves in the second accumulator. -/
def sout0_C_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)
theorem cover0_C_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x1.size (by sl_kernel_rfl) y
/-- What the last point leaves in the first result's staging buffer. -/
def out0_C_3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) (y : S1x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1.size (by sl_kernel_rfl) y
/-- What the last point leaves in the second result's staging buffer. -/
def out0_C_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- THE ACCUMULATION: (first result's buffer, second result's buffer, first accumulator, second accumulator) after the
    body at position n. Away from the last point the results' buffers are not consulted (idle, not written back). -/
def outsAt0 (c : Dev nD) : (n : ℕ) → n < cfg0.N → Vec F S1x1 .f32 × Vec F S1x1 .f32 × Vec F S1x1 .f32 × Vec F S1x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩))
  | n + 1, hn =>
    if h0 : (n + 1) % 64 = 0 then
      False.elim (by have hN : n + 1 < 64 := lt_of_lt_of_eq hn (show cfg0.N = 64 from N_0); omega)
    else
      if h1 : (n + 1) % 64 = 63 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 64 = 0) (h1 : ¬t.val % 64 = 63) :
    outsAt0 V c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) (h1 : ¬t.val % 64 = 63) :
    outsAt0 V c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulators hold anything; afterwards what
    the point before left. The generator register rides along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ (∃ r, prngReg c r)) := by
  cases n with
  | zero => exact absurd rfl hz
  | succ n => rfl

/-- The proof data: the arrays as the region finds them; after the body each input's buffer at its block, each
    result's at the accumulation's component; the invariant above; the first operand's array is read through two
    windows, which hold the two halves of its share; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the position says which of the three runs applies; the invariant hands it the accumulators
    (at anything before the first point, at what the point before left afterwards) and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 64 = 0
  · have h1 : ¬t.val % 64 = 63 := by omega
    have hz : t.val = 0 := by omega
    have hnc1 : ¬cond0_1 (grid0.coords t) := fun h => h1 ((hcond0_1 t).mp h)
    rw [Dat.leavesExact_idle (dat0 V c) 3 t (idleAt0_3 t hnc1) (noFlush0_3 t hnc1),
      Dat.leavesExact_idle (dat0 V c) 4 t (idleAt0_4 t hnc1) (noFlush0_4 t hnc1)]
    rw [outsAt0_A V c t h0 h1]
    unfold sout0_A_0 sout0_A_1; (try dsimp only)
    rw [PhiS_castSucc V c t, PhiS_zero V c _ _ hz, PhiA0_eq]
    iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk V c 0 t) (iblk V c 1 t) (iblk V c 2 t)).2.2.2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ )
        · unfold owns; iexists _; isplitr
          swap; · iexact HS1
          ipureintro; exact View.read_writes_of_cover _ _ _ _ _ (scover0_A_1 c _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    by_cases h1 : t.val % 64 = 63
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C_3 out0_C_4 sout0_C_0 sout0_C_1; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ )
      · unfold owns; iexists _; isplitr
        swap; · iexact H4
        ipureintro; exact View.read_writes_of_cover _ _ _ _ _ (cover0_C_4 c _ _ _ _ _ _ _ _ _ _ _ _ _ _ _ _ _ _ _ _ _ _ )
    · have hnc1 : ¬cond0_1 (grid0.coords t) := fun h => h1 ((hcond0_1 t).mp h)
      rw [Dat.leavesExact_idle (dat0 V c) 3 t (idleAt0_3 t hnc1) (noFlush0_3 t hnc1),
        Dat.leavesExact_idle (dat0 V c) 4 t (idleAt0_4 t hnc1) (noFlush0_4 t hnc1)]
      rw [outsAt0_B V c t h0 h1]
      unfold sout0_B_0 sout0_B_1; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk V c 0 t) (iblk V c 1 t) (iblk V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexists _; iexact H3
      iexists _; iexact H4

/-- The body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hinΦ (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the accumulators back, their contents forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    · iexists _; iexact HS1
  iexact Hg

theorem houtΦ (c : Dev nD) : (dat0 V c).Φ (Fin.last cfg0.N) ⊢ Pipeline.ΦA spec0 c :=
  Phi_out V c _ (by rw [Fin.val_last]; have : cfg0.N = 64 := N_0; omega)

end Acc

end Cert.KernelIdeal.Hand

end
-- ==== Proof.KLaunch.lean ====
/-
  The launch.  @main is the kernel region followed by twelve host operations.  The first operand's array is
  read through two windows, so at the region's entry its full share is dealt in halves to the two windows and
  at the exit the halves are joined again; the two results' arrays come back holding what the last point wrote.
  The run then states, for every buffer that outlives the region, what it holds at the end: the region's exit
  contents pushed through the twelve operations.
-/
import proofs.«140796_j56727928045837_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A core's unscoped buffers and the pipeline's arrays, one by one -/

theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1) ∗ (((c : Thread nD τ).loc main_v0_0) ↦{fullShare} V main_v0_0) ∗ (((c : Thread nD τ).loc main_v0_1) ↦{fullShare} V main_v0_1) ∗ (((c : Thread nD τ).loc main_v1) ↦{fullShare} V main_v1) ∗ (((c : Thread nD τ).loc main_v2) ↦{fullShare} V main_v2) ∗ (((c : Thread nD τ).loc main_cst) ↦{fullShare} V main_cst) ∗ (((c : Thread nD τ).loc main_v3) ↦{fullShare} V main_v3) ∗ (((c : Thread nD τ).loc main_cst_0) ↦{fullShare} V main_cst_0) ∗ (((c : Thread nD τ).loc main_v4) ↦{fullShare} V main_v4) ∗ (((c : Thread nD τ).loc main_cst_1) ↦{fullShare} V main_cst_1) ∗ (((c : Thread nD τ).loc main_v5) ↦{fullShare} V main_v5) ∗ (((c : Thread nD τ).loc main_v6) ↦{fullShare} V main_v6) ∗ (((c : Thread nD τ).loc main_cst_2) ↦{fullShare} V main_cst_2) ∗ (((c : Thread nD τ).loc main_v7) ↦{fullShare} V main_v7) ∗ (((c : Thread nD τ).loc main_v8) ↦{fullShare} V main_v8)) := by
  unfold unscopedBufs
  exact bigSep_eq_bigSepL_of_eq [main_arg0, main_arg1, main_v0_0, main_v0_1, main_v1, main_v2, main_cst, main_v3, main_cst_0, main_v4, main_cst_1, main_v5, main_v6, main_cst_2, main_v7, main_v8] (by decide) (by decide) _

section Arrays
variable (V : (c : Dev nD) → (b : Ref sig .tc) → Buf (Elt F) ((c : Thread nD τ).loc b))

theorem arrays_list (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1) ∗ (((c : Thread nD τ).loc main_arg1) ↦{fullShare} G 2) ∗ (((c : Thread nD τ).loc main_v0_0) ↦{fullShare} G 3) ∗ (((c : Thread nD τ).loc main_v0_1) ↦{fullShare} G 4)) := by
  unfold Dat.arrays
  rw [bigSep_W0, (arr_whole0 0).set_eq_univ, (arr_whole0 2).set_eq_univ, (arr_whole0 3).set_eq_univ, (arr_whole0 4).set_eq_univ]
  rfl

/-- ENTRY: the unscoped buffers at the region-entry contents are the pipeline's arrays — the first operand's full
    share dealt in halves to its two windows — and the buffers no window stages. -/
theorem entry_split (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [unscopedBufs_list, arrays_list, unscopedRest0_eq]
  iintro ⟨Ha0, Ha1, Hv00, Hv01, Hrest⟩
  ihave Hs := (pointsTo_share (PosShare.mem_left_op_right fullShare)).1 $$ Ha0
  icases Hs with ⟨HaL, HaR⟩
  isplitl [HaL HaR Ha1 Hv00 Hv01]
  · isplitl [HaL]; · iexact HaL
    isplitl [HaR]; · iexact HaR
    isplitl [Ha1]; · iexact Ha1
    isplitl [Hv00]; · iexact Hv00
    iexact Hv01
  iexact Hrest

end Arrays

section Run
variable (m : (ℓ : Loc nD τ sig) → Buf (Elt F) ℓ) (ρ : Dev nD → PrngReg)

/-- Core c's buffers at launch, which is when the region is entered (no host operation comes before it). -/
abbrev W0 : Dev nD → Valuation τ sig (Elt F) := fun c b => m ((c : Dev nD), b)
abbrev V1 : (c : Dev nD) → (b : Ref sig .tc) → Buf (Elt F) ((c : Thread nD τ).loc b) := fun c b => W0 m c b

/-- At the region's exit: the two results' arrays at what the last point wrote back, every other buffer as entered. -/
def W2 (c : Dev nD) : Valuation τ sig (Elt F) :=
  Function.update (Function.update (W0 m c) (Proc.devRef .tc main_v0_0) ((dat0 (V1 m) c).arrAt 3 cfg0.N))
    (Proc.devRef .tc main_v0_1) ((dat0 (V1 m) c).arrAt 4 cfg0.N)

theorem W2_v0_1 (c : Dev nD) : W2 m c (Proc.devRef .tc main_v0_1) = (dat0 (V1 m) c).arrAt 4 cfg0.N := by
  unfold W2; exact Function.update_self ..
theorem W2_v0_0 (c : Dev nD) : W2 m c (Proc.devRef .tc main_v0_0) = (dat0 (V1 m) c).arrAt 3 cfg0.N := by
  unfold W2
  rw [Function.update_of_ne (StableHlo.devRef_ne_of_ne (by decide))]; exact Function.update_self ..
theorem W2_rest (c : Dev nD) (b : Ref sig .tc) (h3 : b ≠ main_v0_0) (h4 : b ≠ main_v0_1) :
    W2 m c (Proc.devRef .tc b) = W0 m c (Proc.devRef .tc b) := by
  unfold W2
  rw [Function.update_of_ne (StableHlo.devRef_ne_of_ne h4), Function.update_of_ne (StableHlo.devRef_ne_of_ne h3)]

/-- EXIT: the arrays at what the pipeline leaves — the halves of the first operand's share joined again — and the
    buffers no window stages make every unscoped buffer at the exit contents. -/
theorem exit_join (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs (Ix := Unit) (Name := ℕ) (U := UR sig nD τ) (Lvl := ℕ) c (fun b => W2 m c b) : sProp 𝕄) := by
  rw [unscopedBufs_list, arrays_list, unscopedRest0_eq]
  have h0 : (dat0 (V1 m) c).arrAt 0 cfg0.N = V1 m c main_arg0 := ((dat0 (V1 m) c).arrAt_in 0 rfl _).trans (A_eq (V1 m) c 0)
  have h1 : (dat0 (V1 m) c).arrAt 1 cfg0.N = V1 m c main_arg0 := ((dat0 (V1 m) c).arrAt_in 1 rfl _).trans (A_eq (V1 m) c 1)
  have h2 : (dat0 (V1 m) c).arrAt 2 cfg0.N = V1 m c main_arg1 := ((dat0 (V1 m) c).arrAt_in 2 rfl _).trans (A_eq (V1 m) c 2)
  simp only [h0, h1, h2, W2_v0_0, W2_v0_1, W2_rest m c main_arg0 (by decide) (by decide), W2_rest m c main_arg1 (by decide) (by decide),
    W2_rest m c main_v1 (by decide) (by decide), W2_rest m c main_v2 (by decide) (by decide), W2_rest m c main_cst (by decide) (by decide), W2_rest m c main_v3 (by decide) (by decide), W2_rest m c main_cst_0 (by decide) (by decide), W2_rest m c main_v4 (by decide) (by decide), W2_rest m c main_cst_1 (by decide) (by decide), W2_rest m c main_v5 (by decide) (by decide), W2_rest m c main_v6 (by decide) (by decide), W2_rest m c main_cst_2 (by decide) (by decide), W2_rest m c main_v7 (by decide) (by decide), W2_rest m c main_v8 (by decide) (by decide)]
  rw [W2_v0_0 m c, W2_v0_1 m c]
  iintro ⟨⟨HaL, HaR, Ha1, Hv00, Hv01⟩, Hrest⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv00]; · iexact Hv00
  isplitl [Hv01]; · iexact Hv01
  iexact Hrest

/-- After the twelve host operations. -/
abbrev W3 : Dev nD → Valuation τ sig (Elt F) := fun c => StableHlo.after hostOps1 (W2 m c)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The region as a segment: entered from every unscoped buffer at the launch contents, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hinΦ (V1 m) c)
  hout c := by
    rw [Pipeline.ownSems0_none]
    exact (houtΦ (V1 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := exit_join m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's two segments: the region, then the twelve host operations from the exit contents. -/
abbrev segs : List (Pipeline.Seg (pcfgs (F := F)) adm (pdats m) () defs₀ 𝒱₀ L lv) :=
  [ .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: every weakly fair execution of @main terminates without fault, and every buffer that outlives the
    region ends at the exit contents pushed through the twelve host operations. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c =>
      (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.KernelIdeal.Hand

end
-- ==== Proof.Spec.lean ====
/-
  The mathematics both programs compute, stated once over the extended reals.

  For two 8192 x 64 arrays a, b the inverse-multiquadric entry at (i, j) is
      C / (C + max(|a_i|^2 + |b_j|^2 - 2 <a_i, b_j>, 0)),        C = 128,
  with |a_i|^2 the sum of the squares of row i and <a_i, b_j> the sum of the products of rows i and j.
  The statistic is  sqrt(max(c_s (S_aa - T) - c_d S_ab, eps))  where S is the sum of all entries and T the
  sum of the diagonal entries of the (a, a) matrix.  One program sums the 8192 x 8192 entries at once and
  computes T; the other sums them tile by tile (1024 x 1024 tiles of 1024-row blocks) and takes T = 8192.
-/
import Idealize.ShloMosaic.PureOps.Ideal
import Idealize.ShloMosaic.PureOps.Ideal.Laws
import Idealize.ShloMosaic.Lib.ValueIdx

noncomputable section

namespace Cert.Imq

open Idealize.ShloMosaic Idealize.ShloMosaic.ValueIdx

/-- An 8192 x 64 array of extended reals. -/
abbrev Arr : Type := (⟨2, ![8192, 64]⟩ : Shape).Idx → EReal
/-- A 1024 x 64 block of rows. -/
abbrev Blk : Type := (⟨2, ![1024, 64]⟩ : Shape).Idx → EReal

/-- The literals, as the binary values both programs carry. -/
def two : EReal := Ideal.ofBits .f32 0x40000000#32
def cC : EReal := Ideal.ofBits .f32 0x43000000#32
def nB : EReal := Ideal.ofBits .f32 0x46000000#32
def cS : EReal := Ideal.ofBits .f32 0x32800400#32
def cD : EReal := Ideal.ofBits .f32 0x33000000#32
def eps : EReal := Ideal.ofBits .f32 0x322BCC77#32

/-- The entry from two squared norms p, q and an inner product g. -/
def imqOf (p q g : EReal) : EReal := Ideal.div cC (cC + max (p + q - two * g) 0)

/-- The squared norm of row i. -/
def rowSq (a : Arr) (i : Fin 8192) : EReal := ∑ k : Fin 64, a (ix2 i k) * a (ix2 i k)
/-- The inner product of row i of a with row j of b. -/
def gram (a b : Arr) (i j : Fin 8192) : EReal := ∑ k : Fin 64, a (ix2 i k) * b (ix2 j k)
/-- The entry at (i, j). -/
def imq (a b : Arr) (i j : Fin 8192) : EReal := imqOf (rowSq a i) (rowSq b j) (gram a b i j)
/-- The sum of all entries. -/
def total (a b : Arr) : EReal := ∑ i : Fin 8192, ∑ j : Fin 8192, imq a b i j
/-- The sum of the diagonal entries of the (a, a) matrix. -/
def diag (a : Arr) : EReal := ∑ i : Fin 8192, imq a a i i
/-- The closing formula from the two sums and the diagonal term. -/
def finish (sxx tr sxz : EReal) : EReal := Ideal.sqrt (max (cS * (sxx - tr) - cD * sxz) eps)

/-- The same quantities on 1024-row blocks. -/
def bRowSq (a : Blk) (r : Fin 1024) : EReal := ∑ k : Fin 64, a (ix2 r k) * a (ix2 r k)
def bGram (a b : Blk) (r c : Fin 1024) : EReal := ∑ k : Fin 64, a (ix2 r k) * b (ix2 c k)
/-- The sum of the entries of one 1024 x 1024 tile: rows of block a against rows of block b. -/
def tile (a b : Blk) : EReal := ∑ r : Fin 1024, ∑ c : Fin 1024, imqOf (bRowSq a r) (bRowSq b c) (bGram a b r c)

/-- Block n of an array: its rows 1024 n … 1024 n + 1023. -/
def rows (a : Arr) (n : Fin 8) : Blk := fun y =>
  a (ix2 (n0 := 8192) (n1 := 64)
      ⟨1024 * n.val + (y 0).val, by have h : (y 0).val < 1024 := (y 0).isLt; have := n.isLt; omega⟩
      ⟨(y 1).val, (y 1).isLt⟩)

/-- The tiled sum in the order a grid of 8 x 8 points visits the tiles: point t is tile (t / 8, t % 8). -/
def tiled (a b : Arr) : EReal :=
  ∑ t : Fin 64, tile (rows a ⟨t.val / 8, by have := t.isLt; omega⟩) (rows b ⟨t.val % 8, Nat.mod_lt _ (by decide)⟩)

end Cert.Imq

end
-- ==== Proof.KTail.lean ====
/-
  The host operations that follow the kernel region, read as one formula.

  The region leaves two 1 x 1 arrays: the tiled sum of the (a, a) matrix and that of the (a, b) matrix. The twelve
  operations after it read each as a scalar, subtract 8192 from the first, scale the difference and the second sum by
  the two constants, subtract, bound the result below by eps and take the square root: the closing formula of the
  specification with the diagonal term taken as 8192. No operation of this stretch writes an argument array, so
  both arguments are still what they were — whatever the float instance.
-/
import proofs.«140796_j56727928045837_1_alg».proof.Proof.Spec
import proofs.«140796_j56727928045837_1_alg».proof.Proof.Gen.KernelIdeal.Launch
import Idealize.ShloMosaic.Lib.StableHlo.Run
import Idealize.ShloMosaic.Lib.Pipeline.Value

noncomputable section

namespace Cert.KernelIdeal.Tail

open Cert.KernelIdeal Cert.KernelIdeal.Gen Idealize.ShloMosaic Cert.Imq ValueIdx

/-! ## The arguments are kept (any float instance) -/

section AnyInstance

variable {F : FTy → Type} [FloatOps F]

/-- No operation after the region writes the first argument. -/
theorem tail_keeps_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No operation after the region writes the second argument. -/
theorem tail_keeps_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end AnyInstance

/-! ## The result at the exact values -/

/-- A 1 x 1 array read as a scalar is its one entry: both shapes have a single position. -/
theorem scalar_of_1x1 {α : Type} (v : S1x1.Idx → α) (h : S1x1.ShapeCasts S_) (y : S_.Idx) :
    shapeCast S_ v h y = v (ix2 0 0) :=
  shapeCast_apply v h y (ix2 0 0) (by
    have h1 : (S1x1.rowMajor (ix2 0 0)).val < 1 :=
      lt_of_lt_of_eq (S1x1.rowMajor (ix2 0 0)).isLt (by decide : S1x1.numel = 1)
    have h2 : (S_.rowMajor y).val < 1 := lt_of_lt_of_eq (S_.rowMajor y).isLt (by decide : S_.numel = 1)
    omega)

/-- The last result of the stretch is the closing formula of the two sums the region leaves, with 8192 as the
    diagonal term. -/
theorem tail_v8 (W : Valuation τ sig (Elt Ideal)) (y : S_.Idx) :
    StableHlo.after (hostOps1 (F := Ideal)) W (Proc.devRef .tc main_v8) y
      = finish (W (Proc.devRef .tc main_v0_0) (ix2 0 0)) nB (W (Proc.devRef .tc main_v0_1) (ix2 0 0)) := by
  have e : StableHlo.after (hostOps1 (F := Ideal)) W (Proc.devRef .tc main_v8)
      = Host.sqrt (F := Ideal) (maximumf
          (subf
            (mulf (constant (F := Ideal) S_ .f32 0x32800400#32)
              (subf (shapeCast S_ (W (Proc.devRef .tc main_v0_0)) Facts₀.shapeCasts_S1x1_S_)
                (constant (F := Ideal) S_ .f32 0x46000000#32)))
            (mulf (constant (F := Ideal) S_ .f32 0x33000000#32)
              (shapeCast S_ (W (Proc.devRef .tc main_v0_1)) Facts₀.shapeCasts_S1x1_S_)))
          (constant (F := Ideal) S_ .f32 0x322BCC77#32)) := by
    after_results
    rfl
  refine (congrFun e y).trans ?_
  show Ideal.sqrt (max
      (cS * (shapeCast (α := EReal) S_ (W (Proc.devRef .tc main_v0_0)) Facts₀.shapeCasts_S1x1_S_ y - nB)
        - cD * shapeCast (α := EReal) S_ (W (Proc.devRef .tc main_v0_1)) Facts₀.shapeCasts_S1x1_S_ y) eps) = _
  rw [scalar_of_1x1, scalar_of_1x1]
  rfl

end Cert.KernelIdeal.Tail

end
-- ==== Proof.KClaim.lean ====
/-
  The frame: the program runs to the end without fault and its two argument arrays end as launched — no host
  operation after the region writes an argument, and the region only reads them.
-/
import proofs.«140796_j56727928045837_1_alg».proof.Proof.KLaunch
import proofs.«140796_j56727928045837_1_alg».proof.Proof.KTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans ((Tail.tail_keeps_arg0 (W2 m c)).trans (W2_rest m c main_arg0 (by decide) (by decide))),
     (h c _ (mem_uc main_arg1 (by decide))).trans ((Tail.tail_keeps_arg1 (W2 m c)).trans (W2_rest m c main_arg1 (by decide) (by decide)))⟩)
    (run_main m ρ)

end Cert.KernelIdeal.Hand

end
-- ==== Proof.KPieces.lean ====
/-
  What each run's found pieces are, as values.  At the first point the first accumulator ends at the tile's sum
  added to the zero just stored; at every later point at the tile's sum added to what it held; the second
  accumulator likewise with the third block; at the last point each result's buffer receives its accumulator
  as just stored.
-/
import proofs.«140796_j56727928045837_1_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem sA0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) :
    sout0_A_0 c i arg2 harg2 arg3 harg3 arg4 harg4 arg5 harg5 arg6 harg6 arg7 harg7 arg8 harg8 hc0 hc1 x0 x1 x2 = k0_pay1 (k0_pay7 x0 x1) (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg7.read_unread, harg8.read_unread, View.ld_unit_zero (S := S1024x64) hz, View.ld_unit_zero (S := S1x1) hz]

theorem sA1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 : Vec F S1024x64 .f32) :
    sout0_A_1 c i arg2 harg2 arg3 harg3 arg4 harg4 arg5 harg5 arg6 harg6 arg7 harg7 arg8 harg8 hc0 hc1 x0 x1 x2 = k0_pay2 (k0_pay8 x0 x2) (k0_pay9 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg7.read_unread, harg8.read_unread, View.ld_unit_zero (S := S1024x64) hz, View.ld_unit_zero (S := S1x1) hz]

theorem sB0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) :
    sout0_B_0 c i arg2 harg2 arg3 harg3 arg4 harg4 arg5 harg5 arg6 harg6 arg7 harg7 arg8 harg8 hc0 hc1 x0 x1 x2 xs0 xs1 = k0_pay1 (k0_pay7 x0 x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S1024x64) hz, View.ld_unit_zero (S := S1x1) hz]

theorem sB1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 : Vec F S1024x64 .f32) (xs0 xs1 : Vec F S1x1 .f32) :
    sout0_B_1 c i arg2 harg2 arg3 harg3 arg4 harg4 arg5 harg5 arg6 harg6 arg7 harg7 arg8 harg8 hc0 hc1 x0 x1 x2 xs0 xs1 = k0_pay2 (k0_pay8 x0 x2) (k0_pay9 (F := F)) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S1024x64) hz, View.ld_unit_zero (S := S1x1) hz]

theorem sC0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    sout0_C_0 c i arg2 harg2 arg3 harg3 arg4 harg4 arg5 harg5 arg6 harg6 arg7 harg7 arg8 harg8 hc0 hc1 x0 x1 x2 xs0 xs1 = k0_pay1 (k0_pay7 x0 x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x64) hz, View.ld_unit_zero (S := S1x1) hz]

theorem sC1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    sout0_C_1 c i arg2 harg2 arg3 harg3 arg4 harg4 arg5 harg5 arg6 harg6 arg7 harg7 arg8 harg8 hc0 hc1 x0 x1 x2 xs0 xs1 = k0_pay2 (k0_pay8 x0 x2) (k0_pay9 (F := F)) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x64) hz, View.ld_unit_zero (S := S1x1) hz]

theorem oC3 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    out0_C_3 c i arg2 harg2 arg3 harg3 arg4 harg4 arg5 harg5 arg6 harg6 arg7 harg7 arg8 harg8 hc0 hc1 x0 x1 x2 xs0 xs1 = k0_pay1 (k0_pay7 x0 x1) xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x1) _ hz]
  simp only [View.readAt_eq_ld, harg2.read_unread, harg3.read_unread, harg4.read_unread, harg7.read_unread, harg8.read_unread, View.ld_unit_zero (S := S1024x64) hz, View.ld_unit_zero (S := S1x1) hz]

theorem oC4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 : Vec F S1024x64 .f32) (xs0 xs1 : Vec F S1x1 .f32) :
    out0_C_4 c i arg2 harg2 arg3 harg3 arg4 harg4 arg5 harg5 arg6 harg6 arg7 harg7 arg8 harg8 hc0 hc1 x0 x1 x2 xs0 xs1 = k0_pay2 (k0_pay8 x0 x2) (k0_pay9 (F := F)) xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x1) _ hz]
  simp only [View.readAt_eq_ld, harg2.read_unread, harg3.read_unread, harg4.read_unread, harg7.read_unread, harg8.read_unread, View.ld_unit_zero (S := S1024x64) hz, View.ld_unit_zero (S := S1x1) hz]

end Cert.KernelIdeal.Hand

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.LibRealFold.lean ====
/-
  Extended reals that are real numbers, and folds of `max` over a nonempty finite set — a general module: it depends
  on Mathlib only.
  An extended real "is real" when it is the image of a real number. Products, sums and finite sums of such are such
  (`isReal_mul`, `isReal_add`, `isReal_sum`), and so is the fold of `max` from the bottom element over a nonempty
  finite family of them (`fold_max_isReal`).
  A monotone map commutes with the fold of `max` from the bottom element over a nonempty finite family
  (`fold_max_map`): the largest image is the image of the largest.
-/
import Mathlib.Data.EReal.Inv
import Mathlib.Data.Finset.Fold
import Mathlib.Algebra.BigOperators.Group.Finset.Basic

namespace Cert.RealFold

open scoped BigOperators

/-- The product of two real numbers, read in the extended reals, is a real number. -/
theorem isReal_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- The sum of two real numbers, read in the extended reals, is a real number. -/
theorem isReal_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, read in the extended reals, is a real number. -/
theorem isReal_sum {ι : Type*} (s : Finset ι) (f : ι → EReal) (hf : ∀ j ∈ s, ∃ r : ℝ, f j = (r : EReal)) :
    ∃ r : ℝ, ∑ j ∈ s, f j = (r : EReal) :=
  Finset.sum_induction f (fun z => ∃ r : ℝ, z = (r : EReal)) (fun _ _ => isReal_add) ⟨0, EReal.coe_zero.symm⟩ hf

/-- A monotone map commutes with the fold of `max` from the bottom element over a nonempty finite family: the
    largest of the images is the image of the largest. (Over the empty family the two sides are `⊥` and the image of
    `⊥`, which need not agree.) -/
theorem fold_max_map {ι : Type*} {g : EReal → EReal} (hg : Monotone g) (f : ι → EReal) {s : Finset ι}
    (hs : s.Nonempty) : s.fold max ⊥ (fun j => g (f j)) = g (s.fold max ⊥ f) := by
  induction hs using Finset.Nonempty.cons_induction with
  | singleton a => rw [Finset.fold_singleton, Finset.fold_singleton, max_bot_right, max_bot_right]
  | cons a s ha hs ih => rw [Finset.fold_cons, Finset.fold_cons, ih, hg.map_max]

/-- The fold of `max` from the bottom element over a nonempty finite family of real numbers is a real number. -/
theorem fold_max_isReal {ι : Type*} (f : ι → EReal) {s : Finset ι} (hs : s.Nonempty)
    (hf : ∀ j ∈ s, ∃ r : ℝ, f j = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, max_bot_right, hr]⟩
  | cons a s ha hs ih =>
    obtain ⟨r, hr⟩ := hf a (Finset.mem_cons_self a s)
    obtain ⟨q, hq⟩ := ih fun j hj => hf j (Finset.mem_cons.mpr (Or.inr hj))
    refine ⟨max r q, ?_⟩
    rw [Finset.fold_cons, hr, hq]
    exact (EReal.coe_strictMono.monotone.map_max).symm

end Cert.RealFold
-- ==== Proof.SumLaws.lean ====
/-
  Two laws over the extended reals that join the two programs.

  * The sum of all 8192 x 8192 entries is the sum, over the 64 tiles in the order a grid of 8 x 8 points visits
    them, of each tile's sum over its 1024 x 1024 entries. Row 1024 n + r of an array is row r of its block n, so
    the squared norms and inner products of the blocks are those of the array's rows, and the rest is a
    rearrangement of a finite sum in a commutative monoid: no finiteness is needed.
  * For an array of real numbers every diagonal entry of the (a, a) matrix is 1: the squared norm p of a row is a
    real number, the distance term is p + p - 2 p = 0, so the entry is C / (C + 0) = 1, and 8192 ones add up to
    8192. Here finiteness is indispensable: at an infinite p the distance term is the difference of two infinities.
-/
import proofs.«140796_j56727928045837_1_alg».proof.Proof.Spec
import proofs.«140796_j56727928045837_1_alg».proof.Proof.LibSumBlocks
import proofs.«140796_j56727928045837_1_alg».proof.Proof.LibRealFold

noncomputable section

namespace Cert.Imq

open Idealize.ShloMosaic Idealize.ShloMosaic.ValueIdx
open scoped BigOperators

/-! ## Rows of a block are rows of the array -/

/-- Row `r` of block `n` is row `1024 n + r` of the array. -/
def rowOf (n : Fin 8) (r : Fin 1024) : Fin 8192 :=
  ⟨1024 * n.val + r.val, by have := n.isLt; have := r.isLt; omega⟩

/-- An entry of a block is the array's entry in the corresponding row. -/
theorem rows_apply (a : Arr) (n : Fin 8) (r : Fin 1024) (k : Fin 64) :
    rows a n (ix2 r k) = a (ix2 (rowOf n r) k) := rfl

/-- The squared norm of a block's row is that of the array's row. -/
theorem bRowSq_rows (a : Arr) (n : Fin 8) (r : Fin 1024) : bRowSq (rows a n) r = rowSq a (rowOf n r) :=
  Finset.sum_congr rfl fun k _ => by rw [rows_apply]

/-- The inner product of two blocks' rows is that of the arrays' rows. -/
theorem bGram_rows (a b : Arr) (m n : Fin 8) (r c : Fin 1024) :
    bGram (rows a m) (rows b n) r c = gram a b (rowOf m r) (rowOf n c) :=
  Finset.sum_congr rfl fun k _ => by rw [rows_apply, rows_apply]

/-- The sum of a tile's entries is the sum of the arrays' entries over the tile's rows and columns. -/
theorem tile_rows (a b : Arr) (m n : Fin 8) :
    tile (rows a m) (rows b n) = ∑ r : Fin 1024, ∑ c : Fin 1024, imq a b (rowOf m r) (rowOf n c) :=
  Finset.sum_congr rfl fun r _ => Finset.sum_congr rfl fun c _ => by
    rw [bRowSq_rows, bRowSq_rows, bGram_rows]; rfl

/-! ## The rearrangement -/

/-- A sum over the 8192 rows is the sum over the 8 blocks of the sums over each block's 1024 rows. -/
theorem sum_rows (f : Fin 8192 → EReal) : ∑ i : Fin 8192, f i = ∑ n : Fin 8, ∑ r : Fin 1024, f (rowOf n r) :=
  Cert.Lib.SumBlocks.sum_blocks 8 1024 8192 (by norm_num) f rowOf fun n r => by
    show 1024 * n.val + r.val = n.val * 1024 + r.val
    omega

/-- Point `t` of the 8 x 8 grid is the pair `(t / 8, t % 8)`: a sum over the 64 points is the sum over the pairs. -/
theorem sum_points (F : Fin 8 → Fin 8 → EReal) :
    ∑ t : Fin 64, F ⟨t.val / 8, by have := t.isLt; omega⟩ ⟨t.val % 8, Nat.mod_lt _ (by decide)⟩
      = ∑ m : Fin 8, ∑ n : Fin 8, F m n := by
  refine (Cert.Lib.SumBlocks.sum_blocks 8 8 64 (by norm_num)
      (fun t : Fin 64 => F ⟨t.val / 8, by have := t.isLt; omega⟩ ⟨t.val % 8, Nat.mod_lt _ (by decide)⟩)
      (fun m n => ⟨m.val * 8 + n.val, by have := m.isLt; have := n.isLt; omega⟩) (fun _ _ => rfl)).trans ?_
  refine Finset.sum_congr rfl fun m _ => Finset.sum_congr rfl fun n _ => ?_
  have h1 : (m.val * 8 + n.val) / 8 = m.val := by have := n.isLt; omega
  have h2 : (m.val * 8 + n.val) % 8 = n.val := by have := n.isLt; omega
  exact congrArg₂ F (Fin.ext h1) (Fin.ext h2)

/-- The sum of all entries is the sum of the 64 tiles' sums. -/
theorem total_eq_tiled (a b : Arr) : total a b = tiled a b :=
  calc total a b
      = ∑ m : Fin 8, ∑ r : Fin 1024, ∑ j : Fin 8192, imq a b (rowOf m r) j :=
        sum_rows fun i => ∑ j : Fin 8192, imq a b i j
    _ = ∑ m : Fin 8, ∑ r : Fin 1024, ∑ n : Fin 8, ∑ c : Fin 1024, imq a b (rowOf m r) (rowOf n c) :=
        Finset.sum_congr rfl fun m _ => Finset.sum_congr rfl fun r _ => sum_rows fun j => imq a b (rowOf m r) j
    _ = ∑ m : Fin 8, ∑ n : Fin 8, ∑ r : Fin 1024, ∑ c : Fin 1024, imq a b (rowOf m r) (rowOf n c) :=
        Finset.sum_congr rfl fun m _ => Finset.sum_comm
    _ = ∑ m : Fin 8, ∑ n : Fin 8, tile (rows a m) (rows b n) :=
        Finset.sum_congr rfl fun m _ => Finset.sum_congr rfl fun n _ => (tile_rows a b m n).symm
    _ = tiled a b := (sum_points fun m n => tile (rows a m) (rows b n)).symm

/-! ## The diagonal of the (a, a) matrix -/

/-- The literal 2.0 is the real number 2. -/
theorem two_eq : two = ((2 : ℝ) : EReal) := by
  unfold two; simp [Ideal.ofBits, Ideal.ieee, -EReal.coe_mul]; norm_num

/-- The literal 128.0 is the real number 128. -/
theorem cC_eq : cC = ((128 : ℝ) : EReal) := by
  unfold cC; simp [Ideal.ofBits, Ideal.ieee, -EReal.coe_mul]; norm_num

/-- The literal 8192.0 is the real number 8192. -/
theorem nB_eq : nB = ((8192 : ℝ) : EReal) := by
  unfold nB; simp [Ideal.ofBits, Ideal.ieee, -EReal.coe_mul]; norm_num

/-- A finite sum of real numbers, read in the extended reals, is the real sum. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert x s hx ih => rw [Finset.sum_insert hx, Finset.sum_insert hx, ih, EReal.coe_add]

/-- The squared norm of a row of real numbers is a real number. -/
theorem rowSq_real (a : Arr) (ha : ∀ idx, ∃ r : ℝ, a idx = (r : EReal)) (i : Fin 8192) :
    ∃ p : ℝ, rowSq a i = (p : EReal) :=
  Cert.RealFold.isReal_sum _ _ fun _ _ => Cert.RealFold.isReal_mul (ha _) (ha _)

/-- At a real squared norm `p` on both sides and inner product `p` the distance term vanishes and the entry is 1. -/
theorem imqOf_self (p : ℝ) : imqOf (p : EReal) (p : EReal) (p : EReal) = ((1 : ℝ) : EReal) := by
  unfold imqOf
  rw [two_eq, cC_eq]
  have h0 : (p : EReal) + (p : EReal) - ((2 : ℝ) : EReal) * (p : EReal) = 0 := by
    rw [← EReal.coe_add, ← EReal.coe_mul, ← EReal.coe_sub]
    have h : p + p - 2 * p = 0 := by ring
    rw [h, EReal.coe_zero]
  rw [h0, max_self, add_zero, Ideal.div_coe (by norm_num), ← EReal.coe_mul]
  norm_num

/-- The sum of the diagonal entries of the (a, a) matrix of an array of real numbers is 8192. -/
theorem diag_eq_nB (a : Arr) (ha : ∀ idx, ∃ r : ℝ, a idx = (r : EReal)) : diag a = nB := by
  have h1 : ∀ i : Fin 8192, imq a a i i = ((1 : ℝ) : EReal) := fun i => by
    obtain ⟨p, hp⟩ := rowSq_real a ha i
    show imqOf (rowSq a i) (rowSq a i) (rowSq a i) = _
    rw [hp, imqOf_self]
  unfold diag
  rw [Finset.sum_congr rfl fun i _ => h1 i, nB_eq, coe_sum]
  simp

end Cert.Imq

end
-- ==== Proof.KBlocks.lean ====
/-
  Each input window's block at a grid point is a block of 1024 rows of its array.

  The grid point t has coordinates (t / 8, t % 8).  The first window follows the first coordinate, the second and
  third follow the second; a block's entry (r, k) sits in the array at row (block index) * 1024 + r, column k.
-/
import proofs.«140796_j56727928045837_1_alg».proof.Proof.Spec
import proofs.«140796_j56727928045837_1_alg».proof.Proof.SumLaws
import proofs.«140796_j56727928045837_1_alg».proof.Proof.KRuns
import Idealize.ShloMosaic.Lib.Pipeline.Value

noncomputable section

namespace Cert.KernelIdeal.Blocks

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The index maps, decided once over the 64 points -/

/-- Window 0 reads block (t / 8, 0). -/
theorem idx_facts0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- Window 1 reads block (t % 8, 0). -/
theorem idx_facts1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- Window 2 reads block (t % 8, 0). -/
theorem idx_facts2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)

/-- A grid point's number is below 64. -/
theorem point_lt (t : Fin cfg0.N) : t.val < 64 := by
  have h := t.isLt
  have e : cfg0.N = 64 := N_0
  omega

/-! ## A block's entry in the array -/

/-- Window 0's block at point t, at (r, k), is the array at row 1024 (t / 8) + r, column k. -/
theorem iblk0_apply (c : Dev nD) (t : Fin cfg0.N) (y : S1024x64.Idx) (k : S8192x64.Idx)
    (hk0 : (k 0).val = 1024 * (t.val / 8) + (y 0).val) (hk1 : (k 1).val = (y 1).val) :
    (Hand.iblk V c 0 t : S1024x64.Idx → Elt Ideal .f32) y = (V c main_arg0 : S8192x64.Idx → Elt Ideal .f32) k := by
  unfold Hand.iblk
  rw [View.read_apply]
  show (V c main_arg0 : S8192x64.Idx → Elt Ideal .f32) _ = _
  congr 1
  funext a
  apply Fin.ext
  match a with
  | ⟨0, _⟩ => show win0_0.index t 0 * 1024 + 1 * (y 0).val = (k 0).val; rw [(idx_facts0 t).1, hk0]; omega
  | ⟨1, _⟩ => show win0_0.index t 1 * 64 + 1 * (y 1).val = (k 1).val; rw [(idx_facts0 t).2, hk1]; omega

/-- Window 1's block at point t, at (r, k), is the array at row 1024 (t % 8) + r, column k. -/
theorem iblk1_apply (c : Dev nD) (t : Fin cfg0.N) (y : S1024x64.Idx) (k : S8192x64.Idx)
    (hk0 : (k 0).val = 1024 * (t.val % 8) + (y 0).val) (hk1 : (k 1).val = (y 1).val) :
    (Hand.iblk V c 1 t : S1024x64.Idx → Elt Ideal .f32) y = (V c main_arg0 : S8192x64.Idx → Elt Ideal .f32) k := by
  unfold Hand.iblk
  rw [View.read_apply]
  show (V c main_arg0 : S8192x64.Idx → Elt Ideal .f32) _ = _
  congr 1
  funext a
  apply Fin.ext
  match a with
  | ⟨0, _⟩ => show win0_1.index t 0 * 1024 + 1 * (y 0).val = (k 0).val; rw [(idx_facts1 t).1, hk0]; omega
  | ⟨1, _⟩ => show win0_1.index t 1 * 64 + 1 * (y 1).val = (k 1).val; rw [(idx_facts1 t).2, hk1]; omega

/-- Window 2's block at point t, at (r, k), is the second array at row 1024 (t % 8) + r, column k. -/
theorem iblk2_apply (c : Dev nD) (t : Fin cfg0.N) (y : S1024x64.Idx) (k : S8192x64.Idx)
    (hk0 : (k 0).val = 1024 * (t.val % 8) + (y 0).val) (hk1 : (k 1).val = (y 1).val) :
    (Hand.iblk V c 2 t : S1024x64.Idx → Elt Ideal .f32) y = (V c main_arg1 : S8192x64.Idx → Elt Ideal .f32) k := by
  unfold Hand.iblk
  rw [View.read_apply]
  show (V c main_arg1 : S8192x64.Idx → Elt Ideal .f32) _ = _
  congr 1
  funext a
  apply Fin.ext
  match a with
  | ⟨0, _⟩ => show win0_2.index t 0 * 1024 + 1 * (y 0).val = (k 0).val; rw [(idx_facts2 t).1, hk0]; omega
  | ⟨1, _⟩ => show win0_2.index t 1 * 64 + 1 * (y 1).val = (k 1).val; rw [(idx_facts2 t).2, hk1]; omega

/-! ## The blocks as blocks of rows -/

/-- Window 0's block at point t is block t / 8 of the first array. -/
theorem iblk0_eq (c : Dev nD) (t : Fin cfg0.N) :
    Hand.iblk V c 0 t = Cert.Imq.rows (V c main_arg0) ⟨t.val / 8, by have := point_lt t; omega⟩ := by
  funext y
  obtain ⟨r, k, rfl⟩ : ∃ (r : Fin 1024) (k : Fin 64), y = ix2 r k := ⟨y 0, y 1, eq_ix2 y⟩
  exact iblk0_apply V c t (ix2 r k) (ix2 (Cert.Imq.rowOf ⟨t.val / 8, by have := point_lt t; omega⟩ r) k) rfl rfl

/-- Window 1's block at point t is block t % 8 of the first array. -/
theorem iblk1_eq (c : Dev nD) (t : Fin cfg0.N) :
    Hand.iblk V c 1 t = Cert.Imq.rows (V c main_arg0) ⟨t.val % 8, Nat.mod_lt _ (by decide)⟩ := by
  funext y
  obtain ⟨r, k, rfl⟩ : ∃ (r : Fin 1024) (k : Fin 64), y = ix2 r k := ⟨y 0, y 1, eq_ix2 y⟩
  exact iblk1_apply V c t (ix2 r k) (ix2 (Cert.Imq.rowOf ⟨t.val % 8, Nat.mod_lt _ (by decide)⟩ r) k) rfl rfl

/-- Window 2's block at point t is block t % 8 of the second array. -/
theorem iblk2_eq (c : Dev nD) (t : Fin cfg0.N) :
    Hand.iblk V c 2 t = Cert.Imq.rows (V c main_arg1) ⟨t.val % 8, Nat.mod_lt _ (by decide)⟩ := by
  funext y
  obtain ⟨r, k, rfl⟩ : ∃ (r : Fin 1024) (k : Fin 64), y = ix2 r k := ⟨y 0, y 1, eq_ix2 y⟩
  exact iblk2_apply V c t (ix2 r k) (ix2 (Cert.Imq.rowOf ⟨t.val % 8, Nat.mod_lt _ (by decide)⟩ r) k) rfl rfl

end Cert.KernelIdeal.Blocks

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.TilePayload.lean ====
/-
  What the body stores at one grid point, read at the exact values.

  The body holds three 1024 x 64 blocks of rows.  From a block it forms the column of squared row norms (the lanes of
  the squared block summed, laid out as a 1024 x 1 column), lays one such column across the lanes and the transpose of
  another down the sublanes, and forms the 1024 x 1024 matrix of inner products of the rows of two blocks (a product
  contracting the lane axis of both factors, started from zero; narrowing the factors changes nothing at the exact
  values).  The entry at (r, c) of the tile is then  C / (C + max(p_r + q_c - 2 g_rc, 0)),  and the value stored is the
  running total plus the sum of the tile's entries: the lanes summed row by row, and the column of row sums summed.

  This module proves exactly that, entry by entry and then for the two sums, in the words of the specification:
  the stored value is the loaded total plus `Cert.Imq.tile` of the two blocks.
-/
import proofs.«140796_j56727928045837_1_alg».proof.Proof.Spec
import proofs.«140796_j56727928045837_1_alg».proof.Proof.Gen.KernelIdeal.Skeleton
import proofs.«140796_j56727928045837_1_alg».proof.Proof.LibKeepdims
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Tile

open Idealize.ShloMosaic Idealize.ShloMosaic.ValueIdx
open Cert.KernelIdeal Cert.KernelIdeal.Gen Cert.Imq

/-! ## The column of squared row norms -/

/-- The lanes of the squared block summed and laid out as a column: at (r, u) it is the squared norm of row r. -/
theorem sqcol_apply (x : Vec Ideal S1024x64 .f32) (r : Fin 1024) (u : Fin 1) :
    shapeCast S1024x1
        (multiReduction (F := Ideal) .add [1] S1024 (mulf x x) 0x00000000#32 reduces_S1024x64_S1024 (.inl rfl) rfl)
        shapeCasts_S1024_S1024x1 (ix2 r u)
      = bRowSq x r := by
  refine (Cert.LibKeepdims.shapeCast_a_a1_apply _ _ r u).trans ?_
  refine (Cert.LibKeepdims.multiReduction_add_last_ab (mulf x x) _ _ _ _ r).trans ?_
  rfl

/-- That column laid across the lanes: at (r, c) it is the squared norm of row r, whatever the lane c. -/
theorem sqcol_across_apply (x : Vec Ideal S1024x64 .f32) (r c : Fin 1024) :
    broadcastTo S1024x1024 (Gen.k0_pay5 (F := Ideal) x) broadcasts_S1024x1_S1024x1024 (ix2 r c) = bRowSq x r := by
  refine (Cert.LibKeepdims.broadcastTo_a1_ab_apply _ _ r c).trans ?_
  exact sqcol_apply x r 0

/-- The column transposed into a row and laid down the sublanes: at (r, c) it is the squared norm of row c,
    whatever the sublane r. -/
theorem sqrow_down_apply (x : Vec Ideal S1024x64 .f32) (r c : Fin 1024) :
    broadcastTo S1024x1024
        (transpose S1x1024 [1, 0]
          (shapeCast S1024x1
            (multiReduction (F := Ideal) .add [1] S1024 (mulf x x) 0x00000000#32 reduces_S1024x64_S1024 (.inl rfl) rfl)
            shapeCasts_S1024_S1024x1)
          transposes_S1024x1_p1_0_S1x1024)
        broadcasts_S1x1024_S1024x1024 (ix2 r c)
      = bRowSq x c := by
  refine (broadcastTo_1b_ab_apply _ _ r c).trans ?_
  refine (transpose_ix2_apply _ _ (0 : Fin 1) c).trans ?_
  exact sqcol_apply x c 0

/-! ## The matrix of inner products -/

/-- The product of two blocks contracting the lane axis of both, started from zero: at (r, c) it is the inner product
    of row r of the first block with row c of the second. -/
theorem gram_apply (x0 x1 : Vec Ideal S1024x64 .f32) (r c : Fin 1024) :
    matmul (F := Ideal) dot_S1024x64_S1024x64_S1024x1024_1_1_0_0_n_n none (Gen.k0_pay6 (F := Ideal) x0)
        (truncf .bf16 x1 bitsLt_bf16_f32) (constant (F := Ideal) S1024x1024 .f32 0x00000000#32) (ix2 r c)
      = bGram x0 x1 r c := by
  show FloatOps.matmul dot_S1024x64_S1024x64_S1024x1024_1_1_0_0_n_n none (Gen.k0_pay6 (F := Ideal) x0)
        (truncf .bf16 x1 bitsLt_bf16_f32) (constant (F := Ideal) S1024x1024 .f32 0x00000000#32) (ix2 r c) = _
  rw [Ideal.matmul_constant_zero_apply,
    ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have hl : (dot_S1024x64_S1024x64_S1024x1024_1_1_0_0_n_n).lhsIdx (ix2 r c) ((contrEquiv1 dot_S1024x64_S1024x64_S1024x1024_1_1_0_0_n_n 64 rfl rfl).symm k) = ix2 r k := by
    funext ax; apply Fin.ext
    match ax with
    | ⟨0, _⟩ => rfl
    | ⟨1, _⟩ => exact ((dot_S1024x64_S1024x64_S1024x1024_1_1_0_0_n_n).lhsIdx_val_of_single rfl _ _).trans hk
  have hr : (dot_S1024x64_S1024x64_S1024x1024_1_1_0_0_n_n).rhsIdx (ix2 r c) ((contrEquiv1 dot_S1024x64_S1024x64_S1024x1024_1_1_0_0_n_n 64 rfl rfl).symm k) = ix2 c k := by
    funext ax; apply Fin.ext
    match ax with
    | ⟨0, _⟩ => rfl
    | ⟨1, _⟩ => exact ((dot_S1024x64_S1024x64_S1024x1024_1_1_0_0_n_n).rhsIdx_val_of_single rfl _ _).trans hk
  rw [hl, hr]
  rfl

/-! ## The entries before the quotient -/

/-- The first matrix at (r, c): the squared distance of row r of the first block from row c of the second, cut at 0. -/
theorem pay7_apply (x0 x1 : Vec Ideal S1024x64 .f32) (r c : Fin 1024) :
    Gen.k0_pay7 (F := Ideal) x0 x1 (ix2 r c)
      = max (bRowSq x0 r + bRowSq x1 c - two * bGram x0 x1 r c) 0 := by
  unfold Gen.k0_pay7
  simp only [maximumf_apply, subf_apply, addf_apply, mulf_apply, broadcast_apply]
  rw [sqcol_across_apply, sqrow_down_apply, gram_apply]
  show max (bRowSq x0 r + bRowSq x1 c - two * bGram x0 x1 r c) (Ideal.ofBits .f32 0x00000000#32) = _
  rw [Ideal.ofBits_zero_f32]

/-- The second matrix at (r, c): the same squared distance, not yet cut at 0. -/
theorem pay8_apply (x0 x2 : Vec Ideal S1024x64 .f32) (r c : Fin 1024) :
    Gen.k0_pay8 (F := Ideal) x0 x2 (ix2 r c) = bRowSq x0 r + bRowSq x2 c - two * bGram x0 x2 r c := by
  unfold Gen.k0_pay8
  simp only [subf_apply, addf_apply, mulf_apply, broadcast_apply]
  rw [sqcol_across_apply, sqrow_down_apply, gram_apply]
  rfl

/-- The matrix it is cut against is zero everywhere. -/
theorem pay9_apply (j : S1024x1024.Idx) : Gen.k0_pay9 (F := Ideal) j = 0 := by
  show Ideal.ofBits .f32 0x00000000#32 = 0
  exact Ideal.ofBits_zero_f32

/-! ## The sum of a tile -/

/-- A column summed along its first axis: the one entry of the result is the sum of the column's entries. -/
theorem colsum_apply (v : FVec Ideal S1024x1 .f32) (u : Fin 1) :
    multiReduction (F := Ideal) .add [0] S1 v 0x00000000#32 reduces_S1024x1_S1 (.inl rfl) rfl (ix1 u)
      = ∑ r : Fin 1024, v (ix2 r u) :=
  (Ideal.multiReduction_add_single v _ reduces_S1024x1_S1 _ _ (ix1 u)).trans
    (Finset.sum_congr rfl fun r _ => congrArg v (by
      funext ax; apply Fin.ext
      match ax with
      | ⟨0, _⟩ => rfl
      | ⟨1, _⟩ => rfl))

/-- The lanes summed row by row, the row sums laid out as a column, the column summed and the result laid out as a
    one-entry matrix: that entry is the sum over the rows of the sums over the lanes. -/
theorem tilesum_apply (v : FVec Ideal S1024x1024 .f32) (u w : Fin 1) :
    shapeCast S1x1
        (multiReduction (F := Ideal) .add [0] S1
          (shapeCast S1024x1
            (multiReduction (F := Ideal) .add [1] S1024 v 0x00000000#32 reduces_S1024x1024_S1024 (.inl rfl) rfl)
            shapeCasts_S1024_S1024x1)
          0x00000000#32 reduces_S1024x1_S1 (.inl rfl) rfl)
        shapeCasts_S1_S1x1 (ix2 u w)
      = ∑ r : Fin 1024, ∑ c : Fin 1024, v (ix2 r c) := by
  refine (Cert.LibKeepdims.shapeCast_a_a1_apply _ _ u w).trans ?_
  refine (colsum_apply _ u).trans ?_
  refine Finset.sum_congr rfl fun r _ => ?_
  refine (Cert.LibKeepdims.shapeCast_a_a1_apply _ _ r u).trans ?_
  exact Cert.LibKeepdims.multiReduction_add_last_ab v _ _ _ _ r

/-! ## What is stored -/

/-- The first total: the loaded total plus the sum of the tile of the first block against the second. -/
theorem pay1_eq (x0 x1 : Vec Ideal S1024x64 .f32) (acc : Vec Ideal S1x1 .f32) (y : S1x1.Idx) :
    Gen.k0_pay1 (F := Ideal) (Gen.k0_pay7 x0 x1) acc y = acc y + Cert.Imq.tile x0 x1 := by
  obtain ⟨u, w, rfl⟩ : ∃ (u w : Fin 1), y = ix2 u w := ⟨y 0, y 1, eq_ix2 y⟩
  unfold Gen.k0_pay1
  simp only [shapeCast_self, addf_apply]
  rw [tilesum_apply]
  refine congrArg (acc (ix2 u w) + ·) (Finset.sum_congr rfl fun r _ => Finset.sum_congr rfl fun c _ => ?_)
  rw [divf_apply, addf_apply, broadcast_apply, pay7_apply]
  rfl

/-- The second total: the loaded total plus the sum of the tile of the first block against the third. -/
theorem pay2_eq (x0 x2 : Vec Ideal S1024x64 .f32) (acc : Vec Ideal S1x1 .f32) (y : S1x1.Idx) :
    Gen.k0_pay2 (F := Ideal) (Gen.k0_pay8 x0 x2) (Gen.k0_pay9 (F := Ideal)) acc y = acc y + Cert.Imq.tile x0 x2 := by
  obtain ⟨u, w, rfl⟩ : ∃ (u w : Fin 1), y = ix2 u w := ⟨y 0, y 1, eq_ix2 y⟩
  unfold Gen.k0_pay2
  simp only [shapeCast_self, addf_apply]
  rw [tilesum_apply]
  refine congrArg (acc (ix2 u w) + ·) (Finset.sum_congr rfl fun r _ => Finset.sum_congr rfl fun c _ => ?_)
  rw [divf_apply, addf_apply, broadcast_apply, maximumf_apply, pay8_apply, pay9_apply]
  rfl

/-- At the first grid point both totals start from zero. -/
theorem pay3_eq (y : S1x1.Idx) : Gen.k0_pay3 (F := Ideal) y = 0 := by
  unfold Gen.k0_pay3
  simp only [shapeCast_self, broadcast_apply]
  exact Ideal.ofBits_zero_f32

theorem pay4_eq (y : S1x1.Idx) : Gen.k0_pay4 (F := Ideal) y = 0 := by
  unfold Gen.k0_pay4
  simp only [shapeCast_self, broadcast_apply]
  exact Ideal.ofBits_zero_f32

end Cert.KernelIdeal.Tile

end
-- ==== Proof.KAccum.lean ====
/-
  The running totals in closed form.

  The grid's 64 points are visited in order.  Before the first point's tile is added each total is set to zero, and at
  every point the total becomes what it held plus the sum of that point's tile.  So after point n a total is the sum of
  the tiles of the points 0 … n: an induction on n, with the first step absorbing the zero.  Over all 64 points, where
  point t pairs block t / 8 of one array with block t % 8 of the other, that sum of tile sums is the sum of all
  8192 x 8192 entries.
-/
import proofs.«140796_j56727928045837_1_alg».proof.Proof.Spec
import proofs.«140796_j56727928045837_1_alg».proof.Proof.SumLaws
import proofs.«140796_j56727928045837_1_alg».proof.Proof.TilePayload

noncomputable section

namespace Cert.KernelIdeal.Accum

open Idealize.ShloMosaic Idealize.ShloMosaic.ValueIdx
open Cert.KernelIdeal Cert.KernelIdeal.Gen Cert.Imq
open scoped BigOperators

/-- The first total after point n: the sum of the tiles of the first block against the second over the points 0 … n. -/
theorem acc1_closed (b0 b1 : ℕ → Vec Ideal S1024x64 .f32) (S : ℕ → Vec Ideal S1x1 .f32)
    (h0 : S 0 = Gen.k0_pay1 (F := Ideal) (Gen.k0_pay7 (b0 0) (b1 0)) (Gen.k0_pay3 (F := Ideal)))
    (hs : ∀ n, S (n + 1) = Gen.k0_pay1 (F := Ideal) (Gen.k0_pay7 (b0 (n + 1)) (b1 (n + 1))) (S n))
    (n : ℕ) (y : S1x1.Idx) :
    S n y = ∑ t ∈ Finset.range (n + 1), Cert.Imq.tile (b0 t) (b1 t) := by
  induction n with
  | zero =>
    rw [h0, Tile.pay1_eq, Tile.pay3_eq, zero_add, Finset.sum_range_one]
  | succ n ih =>
    rw [hs n, Tile.pay1_eq, ih, Finset.sum_range_succ _ (n + 1)]

/-- The second total after point n: the sum of the tiles of the first block against the third over the points 0 … n. -/
theorem acc2_closed (b0 b2 : ℕ → Vec Ideal S1024x64 .f32) (S : ℕ → Vec Ideal S1x1 .f32)
    (h0 : S 0 = Gen.k0_pay2 (F := Ideal) (Gen.k0_pay8 (b0 0) (b2 0)) (Gen.k0_pay9 (F := Ideal)) (Gen.k0_pay4 (F := Ideal)))
    (hs : ∀ n, S (n + 1)
      = Gen.k0_pay2 (F := Ideal) (Gen.k0_pay8 (b0 (n + 1)) (b2 (n + 1))) (Gen.k0_pay9 (F := Ideal)) (S n))
    (n : ℕ) (y : S1x1.Idx) :
    S n y = ∑ t ∈ Finset.range (n + 1), Cert.Imq.tile (b0 t) (b2 t) := by
  induction n with
  | zero =>
    rw [h0, Tile.pay2_eq, Tile.pay4_eq, zero_add, Finset.sum_range_one]
  | succ n ih =>
    rw [hs n, Tile.pay2_eq, ih, Finset.sum_range_succ _ (n + 1)]

/-- Over the 64 points, point t pairing block t / 8 of the first array with block t % 8 of the second, the tile sums
    add up to the sum of all entries. -/
theorem range_tiled (a b : Arr) :
    ∑ t ∈ Finset.range 64,
        tile (rows a ⟨t / 8 % 8, Nat.mod_lt _ (by decide)⟩) (rows b ⟨t % 8, Nat.mod_lt _ (by decide)⟩)
      = total a b := by
  rw [total_eq_tiled, Finset.sum_range]
  unfold tiled
  refine Finset.sum_congr rfl fun t _ => ?_
  have h : (⟨t.val / 8 % 8, Nat.mod_lt _ (by decide)⟩ : Fin 8) = ⟨t.val / 8, by have := t.isLt; omega⟩ :=
    Fin.ext (Nat.mod_eq_of_lt (by have := t.isLt; omega))
  exact congrArg (fun m : Fin 8 => tile (rows a m) (rows b ⟨t.val % 8, Nat.mod_lt _ (by decide)⟩)) h

end Cert.KernelIdeal.Accum

end
-- ==== Proof.KValue.lean ====
/-
  The idealized kernel's value.  After point n the first accumulator holds the zero it started from plus the
  sums of tiles 0 … n of the (x, x) matrix, the second those of the (x, z) matrix; the last point copies both
  into the two results, which the one write-back puts in their arrays; the twelve host operations then form
  sqrt(max(c_s (S_xx - 8192) - c_d S_xz, eps)).  The 64 tiles are all of the 8192 x 8192 index pairs.
-/
import proofs.«140796_j56727928045837_1_alg».proof.Proof.KLaunch
import proofs.«140796_j56727928045837_1_alg».proof.Proof.KPieces
import proofs.«140796_j56727928045837_1_alg».proof.Proof.KBlocks
import proofs.«140796_j56727928045837_1_alg».proof.Proof.KAccum
import proofs.«140796_j56727928045837_1_alg».proof.Proof.KTail
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Imq

section Value
variable (m : (ℓ : Loc nD τ sig) → Buf (Elt Ideal) ℓ)

/-- The three blocks the body sees at point t, as blocks of rows of the two argument arrays. -/
def b0 (c : Dev nD) (t : ℕ) : Vec Ideal S1024x64 .f32 := rows (V1 m c main_arg0) ⟨t / 8 % 8, Nat.mod_lt _ (by decide)⟩
def b1 (c : Dev nD) (t : ℕ) : Vec Ideal S1024x64 .f32 := rows (V1 m c main_arg0) ⟨t % 8, Nat.mod_lt _ (by decide)⟩
def b2 (c : Dev nD) (t : ℕ) : Vec Ideal S1024x64 .f32 := rows (V1 m c main_arg1) ⟨t % 8, Nat.mod_lt _ (by decide)⟩

theorem iblk0_nat (c : Dev nD) (t : Fin cfg0.N) : iblk (V1 m) c 0 t = b0 m c t.val := by
  rw [Blocks.iblk0_eq]; unfold b0
  have h := Blocks.point_lt t
  exact congrArg (rows (V1 m c main_arg0)) (Fin.ext (by show t.val / 8 = t.val / 8 % 8; omega))
theorem iblk1_nat (c : Dev nD) (t : Fin cfg0.N) : iblk (V1 m) c 1 t = b1 m c t.val := by
  rw [Blocks.iblk1_eq]; rfl
theorem iblk2_nat (c : Dev nD) (t : Fin cfg0.N) : iblk (V1 m) c 2 t = b2 m c t.val := by
  rw [Blocks.iblk2_eq]; rfl

/-- The two accumulators after point n, by recursion on n. -/
def S1 (c : Dev nD) : ℕ → Vec Ideal S1x1 .f32
  | 0 => k0_pay1 (F := Ideal) (k0_pay7 (b0 m c 0) (b1 m c 0)) (k0_pay3 (F := Ideal))
  | n + 1 => k0_pay1 (F := Ideal) (k0_pay7 (b0 m c (n + 1)) (b1 m c (n + 1))) (S1 c n)
def S2 (c : Dev nD) : ℕ → Vec Ideal S1x1 .f32
  | 0 => k0_pay2 (F := Ideal) (k0_pay8 (b0 m c 0) (b2 m c 0)) (k0_pay9 (F := Ideal)) (k0_pay4 (F := Ideal))
  | n + 1 => k0_pay2 (F := Ideal) (k0_pay8 (b0 m c (n + 1)) (b2 m c (n + 1))) (k0_pay9 (F := Ideal)) (S2 c n)

/-- What the accumulation records after point n is that recursion. -/
theorem acc_eq (c : Dev nD) : ∀ (n : ℕ) (h : n < cfg0.N),
    (outsAt0 (V1 m) c n h).2.2.1 = S1 m c n ∧ (outsAt0 (V1 m) c n h).2.2.2 = S2 m c n
  | 0, h => by
    rw [outsAt0_A (V1 m) c ⟨0, h⟩ rfl (by dsimp only; omega)]
    dsimp only
    rw [sA0, sA1, iblk0_nat, iblk1_nat, iblk2_nat]
    exact ⟨rfl, rfl⟩
  | n + 1, h => by
    have hN : cfg0.N = 64 := N_0
    have h0 : ¬(⟨n + 1, h⟩ : Fin cfg0.N).val % 64 = 0 := by dsimp only; omega
    obtain ⟨ih1, ih2⟩ := acc_eq c n (Nat.lt_of_succ_lt h)
    by_cases h1 : (⟨n + 1, h⟩ : Fin cfg0.N).val % 64 = 63
    · rw [outsAt0_C (V1 m) c ⟨n + 1, h⟩ h0 h1]
      dsimp only
      rw [sC0, sC1, iblk0_nat, iblk1_nat, iblk2_nat]
      constructor
      · show k0_pay1 _ (outsAt0 (V1 m) c n _).2.2.1 = k0_pay1 _ (S1 m c n)
        rw [ih1]
      · show k0_pay2 _ _ (outsAt0 (V1 m) c n _).2.2.2 = k0_pay2 _ _ (S2 m c n)
        rw [ih2]
    · rw [outsAt0_B (V1 m) c ⟨n + 1, h⟩ h0 h1]
      dsimp only
      rw [sB0, sB1, iblk0_nat, iblk1_nat, iblk2_nat]
      constructor
      · show k0_pay1 _ (outsAt0 (V1 m) c n _).2.2.1 = k0_pay1 _ (S1 m c n)
        rw [ih1]
      · show k0_pay2 _ _ (outsAt0 (V1 m) c n _).2.2.2 = k0_pay2 _ _ (S2 m c n)
        rw [ih2]

/-- The last point. -/
abbrev t63 : Fin cfg0.N := ⟨63, by rw [show cfg0.N = 64 from N_0]; decide⟩

/-- At the last point each result's buffer receives its accumulator. -/
theorem outs63 (c : Dev nD) :
    (outsAt0 (V1 m) c 63 t63.isLt).1 = S1 m c 63 ∧ (outsAt0 (V1 m) c 63 t63.isLt).2.1 = S2 m c 63 := by
  obtain ⟨ih1, ih2⟩ := acc_eq m c 62 (by rw [show cfg0.N = 64 from N_0]; decide)
  rw [outsAt0_C (V1 m) c t63 (by decide) rfl]
  dsimp only
  rw [oC3, oC4, iblk0_nat, iblk1_nat, iblk2_nat]
  constructor
  · show k0_pay1 _ (outsAt0 (V1 m) c 62 _).2.2.1 = k0_pay1 _ (S1 m c 62)
    rw [ih1]
  · show k0_pay2 _ _ (outsAt0 (V1 m) c 62 _).2.2.2 = k0_pay2 _ _ (S2 m c 62)
    rw [ih2]

/-- The two results, as contents of their arrays (each array is its one block). -/
abbrev res3 (c : Dev nD) : Buf (Elt Ideal) ((c : Thread nD τ).loc main_v0_0) := S1 m c 63
abbrev res4 (c : Dev nD) : Buf (Elt Ideal) ((c : Thread nD τ).loc main_v0_1) := S2 m c 63

theorem flushed3_eq (c : Dev nD) (t : Fin cfg0.N) (hf : (cfg0.win 3).flush t = true) :
    (dat0 (V1 m) c).flushed 3 t = ((cfg0.win 3).blk t).view.read (Elt Ideal) (res3 m c) := by
  have hN : cfg0.N = 64 := N_0
  have h63 : t.val = 63 := by have := (flush0_3 t).mp hf; have := t.isLt; omega
  obtain rfl : t = t63 := Fin.ext h63
  show (cfg0.win 3).cut (grid0.coords t63) ((dat0 (V1 m) c).after 3 t63) = _
  rw [after0_3, (outs63 m c).1]
  have hz' : (fun a => win0_3.index t63 a * main_v0_0.ty.shape.size a) = fun _ => 0 := funext fun a => by fin_cases a <;> decide
  exact (Memref.read_access_unit_zero (Elt Ideal) main_v0_0 hz' (fun a => by rw [congrFun hz' a]; simp) (res3 m c)).symm

/-- The one write-back, at the last point, covers the [1,1] array. -/
theorem final3 (c : Dev nD) : (dat0 (V1 m) c).arrAt 3 cfg0.N = res3 m c :=
  (dat0 (V1 m) c).arrAt_eq_of_cover 3 (res3 m c) (flushed3_eq m c) fun i =>
    ⟨t63, (flush0_3 t63).mpr rfl, by
      show i ∈ ((View.whole main_v0_0).slice (win0_3.rect t63)).set
      rw [View.set_slice_whole, Rect.mem_set_unit]
      intro a
      have h0 : (i 0 : Nat) < 1 := (i 0).isLt
      have h1 : (i 1 : Nat) < 1 := (i 1).isLt
      match a with
      | ⟨0, _⟩ => show win0_3.index t63 0 * win0_3.size 0 ≤ (i 0 : Nat) ∧ (i 0 : Nat) < win0_3.index t63 0 * win0_3.size 0 + win0_3.xsize (grid0.coords t63) 0
                  rw [show win0_3.index t63 0 * win0_3.size 0 = 0 from by decide +kernel, show win0_3.xsize (grid0.coords t63) 0 = 1 from by decide +kernel]; omega
      | ⟨1, _⟩ => show win0_3.index t63 1 * win0_3.size 1 ≤ (i 1 : Nat) ∧ (i 1 : Nat) < win0_3.index t63 1 * win0_3.size 1 + win0_3.xsize (grid0.coords t63) 1
                  rw [show win0_3.index t63 1 * win0_3.size 1 = 0 from by decide +kernel, show win0_3.xsize (grid0.coords t63) 1 = 1 from by decide +kernel]; omega⟩

theorem flushed4_eq (c : Dev nD) (t : Fin cfg0.N) (hf : (cfg0.win 4).flush t = true) :
    (dat0 (V1 m) c).flushed 4 t = ((cfg0.win 4).blk t).view.read (Elt Ideal) (res4 m c) := by
  have hN : cfg0.N = 64 := N_0
  have h63 : t.val = 63 := by have := (flush0_4 t).mp hf; have := t.isLt; omega
  obtain rfl : t = t63 := Fin.ext h63
  show (cfg0.win 4).cut (grid0.coords t63) ((dat0 (V1 m) c).after 4 t63) = _
  rw [after0_4, (outs63 m c).2]
  have hz' : (fun a => win0_4.index t63 a * main_v0_1.ty.shape.size a) = fun _ => 0 := funext fun a => by fin_cases a <;> decide
  exact (Memref.read_access_unit_zero (Elt Ideal) main_v0_1 hz' (fun a => by rw [congrFun hz' a]; simp) (res4 m c)).symm

/-- The one write-back, at the last point, covers the [1,1] array. -/
theorem final4 (c : Dev nD) : (dat0 (V1 m) c).arrAt 4 cfg0.N = res4 m c :=
  (dat0 (V1 m) c).arrAt_eq_of_cover 4 (res4 m c) (flushed4_eq m c) fun i =>
    ⟨t63, (flush0_4 t63).mpr rfl, by
      show i ∈ ((View.whole main_v0_1).slice (win0_4.rect t63)).set
      rw [View.set_slice_whole, Rect.mem_set_unit]
      intro a
      have h0 : (i 0 : Nat) < 1 := (i 0).isLt
      have h1 : (i 1 : Nat) < 1 := (i 1).isLt
      match a with
      | ⟨0, _⟩ => show win0_4.index t63 0 * win0_4.size 0 ≤ (i 0 : Nat) ∧ (i 0 : Nat) < win0_4.index t63 0 * win0_4.size 0 + win0_4.xsize (grid0.coords t63) 0
                  rw [show win0_4.index t63 0 * win0_4.size 0 = 0 from by decide +kernel, show win0_4.xsize (grid0.coords t63) 0 = 1 from by decide +kernel]; omega
      | ⟨1, _⟩ => show win0_4.index t63 1 * win0_4.size 1 ≤ (i 1 : Nat) ∧ (i 1 : Nat) < win0_4.index t63 1 * win0_4.size 1 + win0_4.xsize (grid0.coords t63) 1
                  rw [show win0_4.index t63 1 * win0_4.size 1 = 0 from by decide +kernel, show win0_4.xsize (grid0.coords t63) 1 = 1 from by decide +kernel]; omega⟩

/-- The program's result: the closing formula of the two complete sums and the literal 8192. -/
theorem v8_eq (c : Dev nD) (y : S_.Idx) :
    W3 m c (Proc.devRef .tc main_v8) y
      = finish (total (V1 m c main_arg0) (V1 m c main_arg0)) nB (total (V1 m c main_arg0) (V1 m c main_arg1)) := by
  show StableHlo.after hostOps1 (W2 m c) (Proc.devRef .tc main_v8) y = _
  rw [Tail.tail_v8, W2_v0_0, W2_v0_1, final3, final4]
  show finish (S1 m c 63 (ValueIdx.ix2 0 0)) nB (S2 m c 63 (ValueIdx.ix2 0 0)) = _
  rw [Accum.acc1_closed (b0 m c) (b1 m c) (S1 m c) rfl (fun _ => rfl) 63, Accum.acc2_closed (b0 m c) (b2 m c) (S2 m c) rfl (fun _ => rfl) 63]
  exact congrArg₂ (fun a b => finish a nB b) (Accum.range_tiled _ _) (Accum.range_tiled _ _)

theorem W3_arg0 (c : Dev nD) : W3 m c (Proc.devRef .tc main_arg0) = m ((c : Thread nD τ).loc main_arg0) :=
  (Tail.tail_keeps_arg0 (W2 m c)).trans (W2_rest m c main_arg0 (by decide) (by decide))
theorem W3_arg1 (c : Dev nD) : W3 m c (Proc.devRef .tc main_arg1) = m ((c : Thread nD τ).loc main_arg1) :=
  (Tail.tail_keeps_arg1 (W2 m c)).trans (W2_rest m c main_arg1 (by decide) (by decide))

/-- The run, read: the result at the closing formula, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v8)
        = (fun _ => finish (total (m ((c.tc : Thread nD τ).loc main_arg0)) (m ((c.tc : Thread nD τ).loc main_arg0))) nB
            (total (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c _ (mem_uc main_v8 (by decide))).trans (funext fun y => v8_eq m c y),
     (h c _ (mem_uc main_arg0 (by decide))).trans (W3_arg0 m c),
     (h c _ (mem_uc main_arg1 (by decide))).trans (W3_arg1 m c)⟩) (run_main m ρ)

end Value

end Cert.KernelIdeal.Hand

end
-- ==== Proof.RefTerm.lean ====
/-
  The reference program's result as one pure term of its two argument arrays.

  The matrix of inverse-multiquadric entries of two 8192 x 64 arrays is built from the squared row norms
  (a product and a row sum, spread down a column and along a row), the inner products (a transpose and a
  contraction over the 64 columns), and then, entry by entry, C / (C + max(p + q - 2 g, 0)).  The statistic
  takes the full sum of the (x, x) matrix, its trace (a sum against the mask "row = column"), and the full
  sum of the (x, z) matrix, and closes with sqrt(max(c_s (S_xx - T) - c_d S_xz, eps)).
-/
import proofs.«140796_j56727928045837_1_alg».proof.ReferenceIdeal
import proofs.«140796_j56727928045837_1_alg».proof.Proof.Gen.ReferenceIdeal
import proofs.«140796_j56727928045837_1_alg».proof.Proof.Spec

noncomputable section

namespace Cert.ReferenceIdeal.Term

open Idealize.ShloMosaic Idealize.SL.Sem
open Cert.ReferenceIdeal Cert.ReferenceIdeal.Facts₀

variable {F : FTy → Type} [FloatOps F]

/-- The 8192 x 8192 matrix of entries C / (C + max(|a_i|^2 + |b_j|^2 - 2 <a_i, b_j>, 0)). -/
def imqMat (a b : FVec F S8192x64 .f32) : FVec F S8192x8192 .f32 :=
  Host.divf
    (broadcastInDim S8192x8192 ![] bcast_S_S8192x8192 (constant S_ .f32 0x43000000#32))
    (addf
      (broadcastInDim S8192x8192 ![] bcast_S_S8192x8192 (constant S_ .f32 0x43000000#32))
      (maximumf
        (subf
          (addf
            (broadcastInDim S8192x8192 ![0, 1] bcast_S8192x1_S8192x8192_0_1
              (broadcastInDim S8192x1 ![0] bcast_S8192_S8192x1_0
                (Host.reduceAdd (mulf a a) (constant S_ .f32 0x00000000#32) reducesTo_S8192x64_S8192_d1 h_S_)))
            (broadcastInDim S8192x8192 ![0, 1] bcast_S1x8192_S8192x8192_0_1
              (broadcastInDim S1x8192 ![1] bcast_S8192_S1x8192_1
                (Host.reduceAdd (mulf b b) (constant S_ .f32 0x00000000#32) reducesTo_S8192x64_S8192_d1 h_S_))))
          (mulf
            (broadcastInDim S8192x8192 ![] bcast_S_S8192x8192 (constant S_ .f32 0x40000000#32))
            (Host.dotGeneral dot_S8192x64_S64x8192_S8192x8192_1_0_0_1_n_n none a
              (transpose S64x8192 [1, 0] b transposes_S8192x64_S64x8192_1_0))))
        (broadcastInDim S8192x8192 ![] bcast_S_S8192x8192 (constant S_ .f32 0x00000000#32))))

/-- The sum of all entries of a matrix. -/
def sumAll (f : FVec F S8192x8192 .f32) : FVec F S_ .f32 :=
  Host.reduceAdd f (constant S_ .f32 0x00000000#32) reducesTo_S8192x8192_S_d0_1 h_S_

/-- The trace of a matrix: the full sum of the matrix masked to the positions whose row equals their column. -/
def traceOf (f : FVec F S8192x8192 .f32) : FVec F S_ .f32 :=
  Host.reduceAdd
    (select
      (cmpi .eq
        (addi (iotaInDim S8192x8192 32 0)
          (broadcastInDim S8192x8192 ![] bcast_S_S8192x8192 (constantI S_ 32 0#32)))
        (iotaInDim S8192x8192 32 1))
      f
      (broadcastInDim S8192x8192 ![] bcast_S_S8192x8192 (constant S_ .f32 0x00000000#32)))
    (constant S_ .f32 0x00000000#32) reducesTo_S8192x8192_S_d0_1 h_S_

/-- The statistic sqrt(max(c_s (S_xx - T) - c_d S_xz, eps)). -/
def refTerm (x z : FVec F S8192x64 .f32) : FVec F S_ .f32 :=
  Host.sqrt
    (maximumf
      (subf
        (mulf (constant S_ .f32 0x32800400#32) (subf (sumAll (imqMat x x)) (traceOf (imqMat x x))))
        (mulf (constant S_ .f32 0x33000000#32) (sumAll (imqMat x z))))
      (constant S_ .f32 0x322BCC77#32))

end Cert.ReferenceIdeal.Term

end
-- ==== Proof.RefRun.lean ====
/-
  The reference program runs.

  Its straight line is seventy-six tensor operations: twenty-eight that build the (x, x) matrix of entries
  C / (C + max(|x_i|^2 + |x_j|^2 - 2 <x_i, x_j>, 0)) and its full sum; the eleven of the trace (the row and
  column counters, the mask "row = column", the masked matrix and its full sum), which the program calls as a
  function and which run here in the buffers that call names; the difference of the two sums; twenty-eight
  that build the (x, z) matrix and its full sum; and the eight of the closing scalar arithmetic
  sqrt(max(c_s (S_xx - T) - c_d S_xz, eps)).  Every weakly fair execution ends without fault, leaves both
  argument arrays as they were, and leaves the result buffer at the composition of these operations applied
  to the two arguments.
-/
import proofs.«140796_j56727928045837_1_alg».proof.Defs
import proofs.«140796_j56727928045837_1_alg».proof.Proof.Gen.ReferenceIdeal
import proofs.«140796_j56727928045837_1_alg».proof.Proof.Gen.Pre_finite_inputs
import proofs.«140796_j56727928045837_1_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The program's seventy-six operations in order; the trace function's eleven stand where it is called,
    over the buffers that call names (its masked matrix reads the (x, x) matrix, its sum is the call's result). -/
abbrev ops : List (HloOp τ sig (Elt F)) :=
  [ binary main_arg0 main_arg0 main_v0 (mulf : (⟨S8192x64, .f32⟩ : BufTy).Contents (Elt F) → (⟨S8192x64, .f32⟩ : BufTy).Contents (Elt F) → (⟨S8192x64, .f32⟩ : BufTy).Contents (Elt F)),
    nullary main_cst (constant S_ .f32 0x00000000#32),
    binary main_v0 main_cst main_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    binary main_arg0 main_arg0 main_v3 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_arg0 main_v9 ((transpose S64x8192 [1, 0] · transposes_S8192x64_S64x8192_1_0) : (⟨S8192x64, .f32⟩ : BufTy).Contents (Elt F) → (⟨S64x8192, .f32⟩ : BufTy).Contents (Elt F)),
    binary main_arg0 main_v9 main_v10 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_1 (constant S_ .f32 0x40000000#32),
    unary main_cst_1 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x43000000#32),
    unary main_cst_3 main_v16 (broadcastInDim S8192x8192 ![] bcast_S_S8192x8192 : (⟨S_, .f32⟩ : BufTy).Contents (Elt F) → (⟨S8192x8192, .f32⟩ : BufTy).Contents (Elt F)),
    binary main_v16 main_v15 main_v17 (addf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x43000000#32),
    unary main_cst_4 main_v18 (broadcastInDim S8192x8192 ![] bcast_S_S8192x8192 : (⟨S_, .f32⟩ : BufTy).Contents (Elt F) → (⟨S8192x8192, .f32⟩ : BufTy).Contents (Elt F)),
    binary main_v18 main_v17 main_v19 (Host.divf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x00000000#32),
    binary main_v19 main_cst_5 main_v20 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_call0_v0 (iotaInDim S8192x8192 32 0 : (⟨S8192x8192, .i32⟩ : BufTy).Contents (Elt F)),
    nullary main_call0_v1 (iotaInDim S8192x8192 32 1 : (⟨S8192x8192, .i32⟩ : BufTy).Contents (Elt F)),
    nullary main_call0_c (constantI S_ 32 0#32 : (⟨S_, .i32⟩ : BufTy).Contents (Elt F)),
    unary main_call0_c main_call0_v2 (broadcastInDim S8192x8192 ![] bcast_S_S8192x8192 : (⟨S_, .i32⟩ : BufTy).Contents (Elt F) → (⟨S8192x8192, .i32⟩ : BufTy).Contents (Elt F)),
    binary main_call0_v0 main_call0_v2 main_call0_v3 (addi : (⟨S8192x8192, .i32⟩ : BufTy).Contents (Elt F) → (⟨S8192x8192, .i32⟩ : BufTy).Contents (Elt F) → (⟨S8192x8192, .i32⟩ : BufTy).Contents (Elt F)),
    binary main_call0_v3 main_call0_v1 main_call0_v4 (cmpi .eq : (⟨S8192x8192, .i32⟩ : BufTy).Contents (Elt F) → (⟨S8192x8192, .i32⟩ : BufTy).Contents (Elt F) → (⟨S8192x8192, .i1⟩ : BufTy).Contents (Elt F)),
    nullary main_call0_cst (constant S_ .f32 0x00000000#32 : (⟨S_, .f32⟩ : BufTy).Contents (Elt F)),
    unary main_call0_cst main_call0_v5 (broadcastInDim S8192x8192 ![] bcast_S_S8192x8192 : (⟨S_, .f32⟩ : BufTy).Contents (Elt F) → (⟨S8192x8192, .f32⟩ : BufTy).Contents (Elt F)),
    ternary main_call0_v4 main_v19 main_call0_v5 main_call0_v6 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_call0_cst_0 (constant S_ .f32 0x00000000#32 : (⟨S_, .f32⟩ : BufTy).Contents (Elt F)),
    binary main_call0_v6 main_call0_cst_0 main_v21 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v20 main_v21 main_v22 (subf : (⟨S_, .f32⟩ : BufTy).Contents (Elt F) → (⟨S_, .f32⟩ : BufTy).Contents (Elt F) → (⟨S_, .f32⟩ : BufTy).Contents (Elt F)),
    binary main_arg0 main_arg0 main_v23 (mulf : (⟨S8192x64, .f32⟩ : BufTy).Contents (Elt F) → (⟨S8192x64, .f32⟩ : BufTy).Contents (Elt F) → (⟨S8192x64, .f32⟩ : BufTy).Contents (Elt F)),
    nullary main_cst_6 (constant S_ .f32 0x00000000#32),
    binary main_v23 main_cst_6 main_v24 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v24 main_v25 (broadcastInDim S8192x1 ![0] bcast_S8192_S8192x1_0 : (⟨S8192, .f32⟩ : BufTy).Contents (Elt F) → (⟨S8192x1, .f32⟩ : BufTy).Contents (Elt F)),
    binary main_arg1 main_arg1 main_v26 (mulf : (⟨S8192x64, .f32⟩ : BufTy).Contents (Elt F) → (⟨S8192x64, .f32⟩ : BufTy).Contents (Elt F) → (⟨S8192x64, .f32⟩ : BufTy).Contents (Elt F)),
    nullary main_cst_7 (constant S_ .f32 0x00000000#32),
    binary main_v26 main_cst_7 main_v27 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v27 main_v28 (broadcastInDim S1x8192 ![1] bcast_S8192_S1x8192_1 : (⟨S8192, .f32⟩ : BufTy).Contents (Elt F) → (⟨S1x8192, .f32⟩ : BufTy).Contents (Elt F)),
    unary main_v25 main_v29 (broadcastInDim S8192x8192 ![0, 1] bcast_S8192x1_S8192x8192_0_1 : (⟨S8192x1, .f32⟩ : BufTy).Contents (Elt F) → (⟨S8192x8192, .f32⟩ : BufTy).Contents (Elt F)),
    unary main_v28 main_v30 (broadcastInDim S8192x8192 ![0, 1] bcast_S1x8192_S8192x8192_0_1 : (⟨S1x8192, .f32⟩ : BufTy).Contents (Elt F) → (⟨S8192x8192, .f32⟩ : BufTy).Contents (Elt F)),
    binary main_v29 main_v30 main_v31 (addf : (⟨S8192x8192, .f32⟩ : BufTy).Contents (Elt F) → (⟨S8192x8192, .f32⟩ : BufTy).Contents (Elt F) → (⟨S8192x8192, .f32⟩ : BufTy).Contents (Elt F)),
    unary main_arg1 main_v32 ((transpose S64x8192 [1, 0] · transposes_S8192x64_S64x8192_1_0) : (⟨S8192x64, .f32⟩ : BufTy).Contents (Elt F) → (⟨S64x8192, .f32⟩ : BufTy).Contents (Elt F)),
    binary main_arg0 main_v32 main_v33 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_8 (constant S_ .f32 0x40000000#32),
    unary main_cst_8 main_v34 (broadcastInDim S8192x8192 ![] bcast_S_S8192x8192 : (⟨S_, .f32⟩ : BufTy).Contents (Elt F) → (⟨S8192x8192, .f32⟩ : BufTy).Contents (Elt F)),
    binary main_v34 main_v33 main_v35 (mulf : (⟨S8192x8192, .f32⟩ : BufTy).Contents (Elt F) → (⟨S8192x8192, .f32⟩ : BufTy).Contents (Elt F) → (⟨S8192x8192, .f32⟩ : BufTy).Contents (Elt F)),
    binary main_v31 main_v35 main_v36 (subf : (⟨S8192x8192, .f32⟩ : BufTy).Contents (Elt F) → (⟨S8192x8192, .f32⟩ : BufTy).Contents (Elt F) → (⟨S8192x8192, .f32⟩ : BufTy).Contents (Elt F)),
    nullary main_cst_9 (constant S_ .f32 0x00000000#32),
    unary main_cst_9 main_v37 (broadcastInDim S8192x8192 ![] bcast_S_S8192x8192 : (⟨S_, .f32⟩ : BufTy).Contents (Elt F) → (⟨S8192x8192, .f32⟩ : BufTy).Contents (Elt F)),
    binary main_v36 main_v37 main_v38 (maximumf : (⟨S8192x8192, .f32⟩ : BufTy).Contents (Elt F) → (⟨S8192x8192, .f32⟩ : BufTy).Contents (Elt F) → (⟨S8192x8192, .f32⟩ : BufTy).Contents (Elt F)),
    nullary main_cst_10 (constant S_ .f32 0x43000000#32),
    unary main_cst_10 main_v39 (broadcastInDim S8192x8192 ![] bcast_S_S8192x8192 : (⟨S_, .f32⟩ : BufTy).Contents (Elt F) → (⟨S8192x8192, .f32⟩ : BufTy).Contents (Elt F)),
    binary main_v39 main_v38 main_v40 (addf : (⟨S8192x8192, .f32⟩ : BufTy).Contents (Elt F) → (⟨S8192x8192, .f32⟩ : BufTy).Contents (Elt F) → (⟨S8192x8192, .f32⟩ : BufTy).Contents (Elt F)),
    nullary main_cst_11 (constant S_ .f32 0x43000000#32),
    unary main_cst_11 main_v41 (broadcastInDim S8192x8192 ![] bcast_S_S8192x8192 : (⟨S_, .f32⟩ : BufTy).Contents (Elt F) → (⟨S8192x8192, .f32⟩ : BufTy).Contents (Elt F)),
    binary main_v41 main_v40 main_v42 (Host.divf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    binary main_v42 main_cst_12 main_v43 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_13 (constant S_ .f32 0x32800400#32),
    binary main_cst_13 main_v22 main_v44 (mulf : (⟨S_, .f32⟩ : BufTy).Contents (Elt F) → (⟨S_, .f32⟩ : BufTy).Contents (Elt F) → (⟨S_, .f32⟩ : BufTy).Contents (Elt F)),
    nullary main_cst_14 (constant S_ .f32 0x33000000#32),
    binary main_cst_14 main_v43 main_v45 (mulf : (⟨S_, .f32⟩ : BufTy).Contents (Elt F) → (⟨S_, .f32⟩ : BufTy).Contents (Elt F) → (⟨S_, .f32⟩ : BufTy).Contents (Elt F)),
    binary main_v44 main_v45 main_v46 (subf : (⟨S_, .f32⟩ : BufTy).Contents (Elt F) → (⟨S_, .f32⟩ : BufTy).Contents (Elt F) → (⟨S_, .f32⟩ : BufTy).Contents (Elt F)),
    nullary main_cst_15 (constant S_ .f32 0x322BCC77#32),
    binary main_v46 main_cst_15 main_v47 (maximumf : (⟨S_, .f32⟩ : BufTy).Contents (Elt F) → (⟨S_, .f32⟩ : BufTy).Contents (Elt F) → (⟨S_, .f32⟩ : BufTy).Contents (Elt F)),
    unary main_v47 main_v48 (Host.sqrt : (⟨S_, .f32⟩ : BufTy).Contents (Elt F) → (⟨S_, .f32⟩ : BufTy).Contents (Elt F)) ]

set_option maxHeartbeats 4000000 in
/-- The program is that straight line: with the two halves of its text and the two functions opened where
    they are called, both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore's table only. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., nullary_bufs_sub .., nullary_bufs_sub ..,
    nullary_bufs_sub .., unary_bufs_sub .., binary_bufs_sub .., binary_bufs_sub .., nullary_bufs_sub .., unary_bufs_sub ..,
    ternary_bufs_sub .., nullary_bufs_sub .., binary_bufs_sub .., binary_bufs_sub .., binary_bufs_sub .., nullary_bufs_sub ..,
    binary_bufs_sub .., unary_bufs_sub .., binary_bufs_sub .., nullary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., nullary_bufs_sub .., binary_bufs_sub .., nullary_bufs_sub .., binary_bufs_sub ..,
    binary_bufs_sub .., nullary_bufs_sub .., binary_bufs_sub .., unary_bufs_sub ..⟩

set_option maxHeartbeats 4000000 in
/-- What the result buffer holds after the line, from any contents: each operation's value read at the
    buffer it writes, back to the two arguments, is the composed term. -/
theorem out_eq (V : Valuation τ sig (Elt F)) :
    after ops V (main_v48 : DevRef τ sig)
      = Term.refTerm (F := F) (V (main_arg0 : DevRef τ sig)) (V (main_arg1 : DevRef τ sig)) := by
  after_results_simp
  rfl

set_option maxHeartbeats 4000000 in
/-- No operation writes the first argument. -/
theorem arg0_eq (V : Valuation τ sig (Elt F)) :
    after ops V (main_arg0 : DevRef τ sig) = V (main_arg0 : DevRef τ sig) := by
  after_results_simp

set_option maxHeartbeats 4000000 in
/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution
    of the program terminates, the result buffer ends at the composed term of the two arguments, and both
    arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = Term.refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans (out_eq _),
      (h c main_arg0).trans (arg0_eq _),
      (h c main_arg1).trans (arg1_eq _)⟩)
    (run_seq scopedRefs_eq scopedSems_eq defs main (fun _ => ops) main_eq (fun _ => ops_sub) m ρ)

/-- The reference program runs and leaves its two argument arrays unchanged. -/
theorem frame : Cert.frame_ReferenceIdeal := fun m g _ =>
  (θ_run _ _ _).mono (fun _ h c => (h c).2) (run (F := Ideal) m g)

end Cert.ReferenceIdeal.RefRun

end
-- ==== Proof.RefValue.lean ====
/-
  The reference's pure term read at the exact values.

  Each stage is read at an index: a row sum is the sum over the 64 columns; a column (row) of squared norms spread over
  the matrix reads the norm of its row (column); the contraction against the transposed array is the inner product
  of two rows; the masked full sum is the sum over the diagonal.  Together: the term is the closing formula of the
  three sums of inverse-multiquadric entries.
-/
import proofs.«140796_j56727928045837_1_alg».proof.Proof.RefTerm
import Idealize.ShloMosaic.Lib.IdealHost
import Idealize.ShloMosaic.Lib.ValueLayout
import Idealize.ShloMosaic.Lib.Pipeline.Value
import Idealize.ShloMosaic.Lib.StackMember

noncomputable section

namespace Cert.ReferenceIdeal.Term

open Idealize.ShloMosaic Idealize.ShloMosaic.ValueIdx
open Cert.ReferenceIdeal Cert.ReferenceIdeal.Facts₀ Cert.Imq
open scoped BigOperators

/-! ## The stages at an index -/

/-- The host square root at an index is the square root of the element. -/
theorem hostSqrt_apply {s : Shape} {φ : FTy} (a : FVec Ideal s φ) (i : s.Idx) :
    Host.sqrt a i = Ideal.sqrt (a i) := rfl

/-- A row sum from zero is the sum over the 64 columns. -/
theorem rowSum_apply (f : FVec Ideal S8192x64 .f32) (i : Fin 8192) :
    Host.reduceAdd f (constant (F := Ideal) S_ .f32 0x00000000#32) reducesTo_S8192x64_S8192_d1 h_S_ (ix1 i)
      = ∑ k : Fin 64, f (ix2 i k) := by
  rw [hostReduceAdd_apply, Ideal.hostReduceAdd_single reducesTo_S8192x64_S8192_d1 (by decide : S8192x64.Reduces [1] S8192),
    constant_apply, Ideal.ofBits_zero_f32, zero_add]
  refine Finset.sum_congr rfl fun k _ => congrArg f (funext fun a => Fin.ext ?_)
  match a with
  | ⟨0, _⟩ => rfl
  | ⟨1, _⟩ => rfl

/-- A vector spread down a column and then across the matrix reads its row's entry. -/
theorem spreadCol_apply {α : Type} (v : S8192.Idx → α) (i j : Fin 8192) :
    broadcastInDim S8192x8192 ![0, 1] bcast_S8192x1_S8192x8192_0_1
      (broadcastInDim S8192x1 ![0] bcast_S8192_S8192x1_0 v) (ix2 i j) = v (ix1 i) := by
  rw [broadcastInDim_apply ![0, 1] bcast_S8192x1_S8192x8192_0_1 _ (ix2 i j) (ix2 i (0 : Fin 1))
      (fun a => match a with | ⟨0, _⟩ => rfl | ⟨1, _⟩ => rfl),
    broadcastInDim_apply ![0] bcast_S8192_S8192x1_0 v (ix2 i (0 : Fin 1)) (ix1 i)
      (fun a => match a with | ⟨0, _⟩ => rfl)]

/-- A vector spread along a row and then down the matrix reads its column's entry. -/
theorem spreadRow_apply {α : Type} (v : S8192.Idx → α) (i j : Fin 8192) :
    broadcastInDim S8192x8192 ![0, 1] bcast_S1x8192_S8192x8192_0_1
      (broadcastInDim S1x8192 ![1] bcast_S8192_S1x8192_1 v) (ix2 i j) = v (ix1 j) := by
  rw [broadcastInDim_apply ![0, 1] bcast_S1x8192_S8192x8192_0_1 _ (ix2 i j) (ix2 (0 : Fin 1) j)
      (fun a => match a with | ⟨0, _⟩ => rfl | ⟨1, _⟩ => rfl),
    broadcastInDim_apply ![1] bcast_S8192_S1x8192_1 v (ix2 (0 : Fin 1) j) (ix1 j)
      (fun a => match a with | ⟨0, _⟩ => rfl)]

/-- The contraction of one array against the transpose of another is the inner product of two rows. -/
theorem gram_apply (a b : FVec Ideal S8192x64 .f32) (i j : Fin 8192) :
    Host.dotGeneral dot_S8192x64_S64x8192_S8192x8192_1_0_0_1_n_n none a
        (transpose S64x8192 [1, 0] b transposes_S8192x64_S64x8192_1_0) (ix2 i j)
      = ∑ k : Fin 64, a (ix2 i k) * b (ix2 j k) := by
  have e : dot_S8192x64_S64x8192_S8192x8192_1_0_0_1_n_n = DotDims.plain 8192 64 8192 := rfl
  rw [e, StackMember.dotGeneral_plain_apply]
  refine Finset.sum_congr rfl fun k _ => ?_
  rw [transpose_ix2_apply]

/-- A scalar spread over the whole matrix reads the scalar. -/
theorem splat_apply {α : Type} (x : S_.Idx → α) (i j : Fin 8192) :
    broadcastInDim S8192x8192 ![] bcast_S_S8192x8192 x (ix2 i j) = x ix0 :=
  broadcastInDim_scalar_apply _ x _

/-! ## The matrix of entries, the two sums -/

/-- The matrix at (i, j) is the inverse-multiquadric entry of row i of the first array and row j of the second. -/
theorem imqMat_apply (a b : FVec Ideal S8192x64 .f32) (i j : Fin 8192) :
    imqMat (F := Ideal) a b (ix2 i j) = Cert.Imq.imq a b i j := by
  unfold imqMat
  rw [hostDivf_apply, addf_apply, maximumf_apply, subf_apply, addf_apply, mulf_apply,
    spreadCol_apply, spreadRow_apply, gram_apply, rowSum_apply, rowSum_apply]
  rw [splat_apply, splat_apply, splat_apply]
  simp only [constant_apply, mulf_apply, Ideal.ofBits_zero_f32]
  rfl

/-- The full sum from zero is the double sum over rows and columns. -/
theorem sumAll_apply (f : FVec Ideal S8192x8192 .f32) (y : S_.Idx) :
    sumAll (F := Ideal) f y = ∑ i : Fin 8192, ∑ j : Fin 8192, f (ix2 i j) := by
  unfold sumAll
  rw [hostReduceAdd_apply, Ideal.hostReduceAdd_total reducesTo_S8192x8192_S_d0_1 (fun b => b.elim0),
    constant_apply, Ideal.ofBits_zero_f32, zero_add, sum_idx2]

/-- The mask "row number plus zero equals column number", as 32-bit words, is the bit of i = j: both numbers are
    below 2^32, so the words are equal exactly when the numbers are. -/
theorem diagMask_apply (i j : Fin 8192) :
    cmpi .eq (addi (iotaInDim S8192x8192 32 0) (broadcastInDim S8192x8192 ![] bcast_S_S8192x8192 (constantI S_ 32 0#32)))
      (iotaInDim S8192x8192 32 1) (ix2 i j) = if i = j then 1#1 else 0#1 := by
  show IntOp.cmpi .eq (IntOp.addi (BitVec.ofNat 32 i.val)
      (broadcastInDim S8192x8192 ![] bcast_S_S8192x8192 (constantI S_ 32 0#32) (ix2 i j))) (BitVec.ofNat 32 j.val) = _
  rw [broadcastInDim_scalar_apply]
  show IntOp.cmpi .eq (BitVec.ofNat 32 i.val + 0#32) (BitVec.ofNat 32 j.val) = _
  rw [BitVec.add_zero]
  unfold IntOp.cmpi
  by_cases h : i = j
  · subst h; simp
  · have hne : BitVec.ofNat 32 i.val ≠ BitVec.ofNat 32 j.val := by
      intro e
      have e' := congrArg BitVec.toNat e
      simp only [BitVec.toNat_ofNat] at e'
      have hi := i.isLt
      have hj := j.isLt
      exact h (Fin.ext (by omega))
    rw [if_neg h, beq_eq_false_iff_ne.mpr hne]
    rfl

/-- The masked full sum is the sum over the diagonal. -/
theorem traceOf_apply (f : FVec Ideal S8192x8192 .f32) (y : S_.Idx) :
    traceOf (F := Ideal) f y = ∑ i : Fin 8192, f (ix2 i i) := by
  unfold traceOf
  rw [hostReduceAdd_apply, Ideal.hostReduceAdd_total reducesTo_S8192x8192_S_d0_1 (fun b => b.elim0),
    constant_apply, Ideal.ofBits_zero_f32, zero_add, sum_idx2]
  refine Finset.sum_congr rfl fun i _ => ?_
  have hsel : ∀ j : Fin 8192,
      select (cmpi .eq (addi (iotaInDim S8192x8192 32 0)
          (broadcastInDim S8192x8192 ![] bcast_S_S8192x8192 (constantI S_ 32 0#32))) (iotaInDim S8192x8192 32 1)) f
        (broadcastInDim S8192x8192 ![] bcast_S_S8192x8192 (constant (F := Ideal) S_ .f32 0x00000000#32)) (ix2 i j)
      = if i = j then f (ix2 i j) else 0 := by
    intro j
    rw [select_apply, diagMask_apply, broadcastInDim_scalar_apply, constant_apply, Ideal.ofBits_zero_f32]
    by_cases h : i = j
    · rw [if_pos h, if_pos h, select_one]
    · rw [if_neg h, if_neg h, select_zero]
  simp only [hsel, Finset.sum_ite_eq, Finset.mem_univ, if_true]

/-! ## The term -/

/-- The reference's term is the closing formula of the sum of the (x, x) entries, their diagonal sum, and the sum
    of the (x, z) entries. -/
theorem refTerm_eq (x z : FVec Ideal S8192x64 .f32) (y : S_.Idx) :
    refTerm (F := Ideal) x z y = Cert.Imq.finish (total x x) (diag x) (total x z) := by
  unfold refTerm
  rw [hostSqrt_apply, maximumf_apply, subf_apply, mulf_apply, mulf_apply, subf_apply,
    sumAll_apply, sumAll_apply, traceOf_apply, constant_apply, constant_apply, constant_apply]
  simp only [imqMat_apply]
  rfl

end Cert.ReferenceIdeal.Term

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.FiniteInputs.lean ====
/-
  From the precondition to real numbers.

  The precondition is the conjunction of two tests, one per argument array: every entry's absolute value is below
  +∞. The conjunction being 1 makes both tests 1; a test is a reduction by "and" over all entries into a result of
  one index, so it being 1 makes the comparison 1 at every entry; and an extended real whose absolute value is below
  +∞ is a real number.
-/
import proofs.«140796_j56727928045837_1_alg».proof.Pre_finite_inputs
import proofs.«140796_j56727928045837_1_alg».proof.Proof.Gen.Pre_finite_inputs
import proofs.«140796_j56727928045837_1_alg».proof.Proof.LibFiniteTest
import Idealize.ShloMosaic.Lib.ReduceAll
import Idealize.ShloMosaic.Lib.ValueIdx

noncomputable section

namespace Cert.Imq.Finite

open Idealize.ShloMosaic Idealize.ShloMosaic.ValueIdx

/-- A shape of rank 0 has one index. -/
instance : Subsingleton Cert.Pre_finite_inputs.S_.Idx := ⟨fun _ _ => funext fun d => d.elim0⟩

/-- Under the precondition the comparison |·| < +∞ holds at every entry of both arrays. -/
theorem tests_of_pre (x z : FVec Ideal ⟨2, ![8192, 64]⟩ .f32)
    (h : Cert.Pre_finite_inputs.fn (F := Ideal) x z = fun _ => 1#1) :
    (∀ idx, Ideal.cmp .olt (max (x idx) (-(x idx))) (Ideal.ofBits .f32 0x7F800000#32) = 1#1) ∧
    (∀ idx, Ideal.cmp .olt (max (z idx) (-(z idx))) (Ideal.ofBits .f32 0x7F800000#32) = 1#1) := by
  have h0 := congrFun h ix0
  dsimp only [Cert.Pre_finite_inputs.fn] at h0
  obtain ⟨hx, hz⟩ := IntOp.andi_eq_one.1 h0
  exact ⟨fun idx => Host.reduce_andi_all _ _ _ _ ix0 hx idx, fun idx => Host.reduce_andi_all _ _ _ _ ix0 hz idx⟩

/-- Under the precondition every entry of the first array is a real number. -/
theorem real_of_pre (x z : FVec Ideal ⟨2, ![8192, 64]⟩ .f32)
    (h : Cert.Pre_finite_inputs.fn (F := Ideal) x z = fun _ => 1#1) : ∀ idx, ∃ r : ℝ, x idx = (r : EReal) :=
  fun idx => Cert.LibFiniteTest.real_of_test (x idx) ((tests_of_pre x z h).1 idx)

/-- Under the precondition every entry of the second array is a real number. -/
theorem real_of_pre_snd (x z : FVec Ideal ⟨2, ![8192, 64]⟩ .f32)
    (h : Cert.Pre_finite_inputs.fn (F := Ideal) x z = fun _ => 1#1) : ∀ idx, ∃ r : ℝ, z idx = (r : EReal) :=
  fun idx => Cert.LibFiniteTest.real_of_test (z idx) ((tests_of_pre x z h).2 idx)

end Cert.Imq.Finite

end
-- ==== Proof.lean ====
/-
  The certificate's claim, assembled.

  Both idealized programs compute  sqrt(max(c_s (S_xx - T) - c_d S_xz, eps))  over the extended reals, where S_ab is
  the sum over all 8192 x 8192 index pairs of the inverse-multiquadric entry C / (C + max(|a_i|^2 + |b_j|^2 - 2 <a_i, b_j>, 0)).
  The kernel sums the entries tile by tile over an 8 x 8 grid into two carried accumulators (a regrouping of a
  finite sum in a commutative monoid) and takes T = 8192; the reference sums them at once and computes T as the
  sum of the diagonal entries, each of which is C / (C + max(p + p - 2 p, 0)) = 1 when the row's squared norm p is a
  real number — which is where the precondition (every input finite) is used.
  The three frames: each program runs to the end without fault and leaves its arguments as launched.
-/
import proofs.«140796_j56727928045837_1_alg».proof.Defs
import proofs.«140796_j56727928045837_1_alg».proof.Proof.Gen.Kernel
import proofs.«140796_j56727928045837_1_alg».proof.Proof.Gen.KernelIdeal
import proofs.«140796_j56727928045837_1_alg».proof.Proof.Gen.ReferenceIdeal
import proofs.«140796_j56727928045837_1_alg».proof.Proof.Gen.Pre_finite_inputs
import proofs.«140796_j56727928045837_1_alg».proof.Proof.BClaim
import proofs.«140796_j56727928045837_1_alg».proof.Proof.KClaim
import proofs.«140796_j56727928045837_1_alg».proof.Proof.KValue
import proofs.«140796_j56727928045837_1_alg».proof.Proof.RefRun
import proofs.«140796_j56727928045837_1_alg».proof.Proof.RefValue
import proofs.«140796_j56727928045837_1_alg».proof.Proof.SumLaws
import proofs.«140796_j56727928045837_1_alg».proof.Proof.FiniteInputs
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := Cert.ReferenceIdeal.RefRun.frame

/-- The ideal pass rewrote nothing. -/
theorem preserves : Cert.preserves_Kernel_KernelIdeal := trivial

/-- The kernel's result is the closing formula of the two complete sums and 8192; the reference's is the same
    formula with the diagonal sum in place of 8192, and for finite inputs the diagonal sum is 8192. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2.1, (h c).2.2⟩)
    (Cert.ReferenceIdeal.RefRun.run (F := Ideal) m' ρ')
  rw [(hagree c).1, (hagree c).2]
  funext y
  rw [Cert.ReferenceIdeal.Term.refTerm_eq, Cert.Imq.diag_eq_nB _ (Cert.Imq.Finite.real_of_pre _ _ (hpre c))]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
